-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 144
  | .vmem => 22
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S50000x128, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S_, .i32⟩
  | 71 => ⟨S850000, .i32⟩
  | 72 => ⟨S850000, .i1⟩
  | 73 => ⟨S_, .i32⟩
  | 74 => ⟨S850000, .i32⟩
  | 75 => ⟨S850000, .i32⟩
  | 76 => ⟨S850000, .i32⟩
  | 77 => ⟨S850000x1, .i32⟩
  | 78 => ⟨S850000, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000, .f32⟩
  | 88 => ⟨S850000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000x128, .f32⟩
  | 98 => ⟨S850000x1, .f32⟩
  | 99 => ⟨S850000x128, .f32⟩
  | 100 => ⟨S850000x128, .f32⟩
  | 101 => ⟨S_, .f32⟩
  | 102 => ⟨S50000x128, .f32⟩
  | 103 => ⟨S850000x1, .i32⟩
  | 104 => ⟨S50000x128, .f32⟩
  | 105 => ⟨S1x128, .f32⟩
  | 106 => ⟨S50000x40, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000, .f32⟩
  | 125 => ⟨S850000, .f32⟩
  | 126 => ⟨S_, .i32⟩
  | 127 => ⟨S850000, .i32⟩
  | _ => ⟨S50000x128, .f32⟩

abbrev hbmTy0_1 (i : Nat) : BufTy := match i % 128 with
  | 0 => ⟨S850000, .i1⟩
  | 1 => ⟨S_, .i32⟩
  | 2 => ⟨S850000, .i32⟩
  | 3 => ⟨S850000, .i32⟩
  | 4 => ⟨S850000, .i32⟩
  | 5 => ⟨S850000x1, .i32⟩
  | 6 => ⟨S850000x40, .f32⟩
  | 7 => ⟨S850000x1, .f32⟩
  | 8 => ⟨S850000x40, .f32⟩
  | 9 => ⟨S850000x40, .f32⟩
  | 10 => ⟨S_, .f32⟩
  | 11 => ⟨S50000x40, .f32⟩
  | 12 => ⟨S850000x1, .i32⟩
  | 13 => ⟨S50000x40, .f32⟩
  | 14 => ⟨S1x40, .f32⟩
  | 15 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x40, .f32⟩
  | .local _ .vmem, ⟨15, _⟩ => ⟨S5000x40, .f32⟩
  | .local _ .vmem, ⟨16, _⟩ => ⟨S5000x40, .f32⟩
  | .local _ .vmem, ⟨17, _⟩ => ⟨S5000x40, .f32⟩
  | .local _ .vmem, ⟨18, _⟩ => ⟨S5000x40, .f32⟩
  | .local _ .vmem, ⟨19, _⟩ => ⟨S1x40, .f32⟩
  | .local _ .vmem, ⟨20, _⟩ => ⟨S5000x40, .f32⟩
  | .local _ .vmem, ⟨21, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_12 : Ref sig .tc := ⟨.hbm, 79, rfl⟩
abbrev main_v55 : Ref sig .tc := ⟨.hbm, 80, rfl⟩
abbrev main_v56 : Ref sig .tc := ⟨.hbm, 81, rfl⟩
abbrev main_c_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_14 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_16 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_17 : Ref sig .tc := ⟨.hbm, 107, rfl⟩
abbrev main_v78 : Ref sig .tc := ⟨.hbm, 108, rfl⟩
abbrev main_v79 : Ref sig .tc := ⟨.hbm, 109, rfl⟩
abbrev main_c_18 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_c_19 : Ref sig .tc := ⟨.hbm, 116, rfl⟩
abbrev main_v85 : Ref sig .tc := ⟨.hbm, 117, rfl⟩
abbrev main_v86 : Ref sig .tc := ⟨.hbm, 118, rfl⟩
abbrev main_c_20 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_c_21 : Ref sig .tc := ⟨.hbm, 126, rfl⟩
abbrev main_v93 : Ref sig .tc := ⟨.hbm, 127, rfl⟩
abbrev main_v94 : Ref sig .tc := ⟨.hbm, 128, rfl⟩
abbrev main_c_22 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_23 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x40_S5000x40_1_0_0_1_n_n_wf : DotDims.WF S5000x128 S128x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x40.size a ≤ S128x40.size a
  hwx2_2 : ∀ i : grid2.Coords, EltTy.bits .f32 = 32 ∨ (Rect.block (s := S128x40) S128x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S50000x40.size a
  hwx2_3 : ∀ i : grid2.Coords, EltTy.bits .f32 = 32 ∨ (Rect.block (s := S50000x40) S5000x40.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S50000x40.size a
  hwx3_0 : ∀ i : grid3.Coords, EltTy.bits .f32 = 32 ∨ (Rect.block (s := S50000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S50000x40.size a
  hwx3_2 : ∀ i : grid3.Coords, EltTy.bits .f32 = 32 ∨ (Rect.block (s := S50000x40) S5000x40.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v75) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v76) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v77) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v105) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v106) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v107) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 170
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S50000x128, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000, .f32⟩
  | 93 => ⟨S850000, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000x128, .f32⟩
  | 103 => ⟨S850000x1, .f32⟩
  | 104 => ⟨S850000x128, .f32⟩
  | 105 => ⟨S850000x128, .f32⟩
  | 106 => ⟨S_, .f32⟩
  | 107 => ⟨S50000x128, .f32⟩
  | 108 => ⟨S850000x1, .i32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S50000x40, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000, .f32⟩
  | 126 => ⟨S_, .i32⟩
  | 127 => ⟨S850000, .i32⟩
  | _ => ⟨S50000x128, .f32⟩

abbrev hbmTy0_1 (i : Nat) : BufTy := match i % 128 with
  | 0 => ⟨S850000, .i1⟩
  | 1 => ⟨S_, .i32⟩
  | 2 => ⟨S850000, .i32⟩
  | 3 => ⟨S850000, .i32⟩
  | 4 => ⟨S850000, .i32⟩
  | 5 => ⟨S850000x1, .i32⟩
  | 6 => ⟨S850000, .f32⟩
  | 7 => ⟨S850000, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000x40, .f32⟩
  | 17 => ⟨S850000x1, .f32⟩
  | 18 => ⟨S850000x40, .f32⟩
  | 19 => ⟨S850000x40, .f32⟩
  | 20 => ⟨S_, .f32⟩
  | 21 => ⟨S50000x40, .f32⟩
  | 22 => ⟨S850000x1, .i32⟩
  | 23 => ⟨S50000x40, .f32⟩
  | 24 => ⟨S1x40, .f32⟩
  | 25 => ⟨S50000x40, .f32⟩
  | 26 => ⟨S50000x40, .f32⟩
  | 27 => ⟨S_, .f32⟩
  | 28 => ⟨S50000, .f32⟩
  | 29 => ⟨S_, .f32⟩
  | 30 => ⟨S50000, .f32⟩
  | 31 => ⟨S50000, .f32⟩
  | 32 => ⟨S50000x1, .f32⟩
  | 33 => ⟨S50000x40, .f32⟩
  | 34 => ⟨S50000x40, .f32⟩
  | 35 => ⟨S50000x40, .f32⟩
  | 36 => ⟨S_, .f32⟩
  | 37 => ⟨S50000, .f32⟩
  | 38 => ⟨S50000x1, .f32⟩
  | 39 => ⟨S50000x1, .f32⟩
  | 40 => ⟨S50000x40, .f32⟩
  | 41 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_c_15 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_call2_cst : Ref sig .tc := ⟨.hbm, 113, rfl⟩
abbrev main_call2_v0 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_c_18 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_19 : Ref sig .tc := ⟨.hbm, 126, rfl⟩
abbrev main_v91 : Ref sig .tc := ⟨.hbm, 127, rfl⟩
abbrev main_v92 : Ref sig .tc := ⟨.hbm, 128, rfl⟩
abbrev main_c_20 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_c_21 : Ref sig .tc := ⟨.hbm, 136, rfl⟩
abbrev main_v99 : Ref sig .tc := ⟨.hbm, 137, rfl⟩
abbrev main_v100 : Ref sig .tc := ⟨.hbm, 138, rfl⟩
abbrev main_c_22 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_23 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_call3_cst : Ref sig .tc := ⟨.hbm, 155, rfl⟩
abbrev main_call3_v0 : Ref sig .tc := ⟨.hbm, 156, rfl⟩
abbrev main_call3_cst_0 : Ref sig .tc := ⟨.hbm, 157, rfl⟩
abbrev main_call3_v1 : Ref sig .tc := ⟨.hbm, 158, rfl⟩
abbrev main_call3_v2 : Ref sig .tc := ⟨.hbm, 159, rfl⟩
abbrev main_call3_v3 : Ref sig .tc := ⟨.hbm, 160, rfl⟩
abbrev main_call3_v4 : Ref sig .tc := ⟨.hbm, 161, rfl⟩
abbrev main_call3_v5 : Ref sig .tc := ⟨.hbm, 162, rfl⟩
abbrev main_call3_v6 : Ref sig .tc := ⟨.hbm, 163, rfl⟩
abbrev main_call3_cst_1 : Ref sig .tc := ⟨.hbm, 164, rfl⟩
abbrev main_call3_v7 : Ref sig .tc := ⟨.hbm, 165, rfl⟩
abbrev main_call3_v8 : Ref sig .tc := ⟨.hbm, 166, rfl⟩
abbrev main_call3_v9 : Ref sig .tc := ⟨.hbm, 167, rfl⟩
abbrev main_call3_v10 : Ref sig .tc := ⟨.hbm, 168, rfl⟩
abbrev main_v115 : Ref sig .tc := ⟨.hbm, 169, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  dot_S50000x128_S128x128_S50000x128_1_0_0_1_n_n_wf : DotDims.WF S50000x128 S128x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KernelRun.lean ====
/-
  The idealized kernel's run with its RESULT named.  @main is nine segments — five stretches of host operations and four
  pipelined regions —, and the contents of every unscoped buffer at each segment boundary are a fold from the launch
  memory: a stretch applies its operations, a region replaces its arrays by what its write-backs leave and keeps
  every other buffer.  The last boundary's contents are `W9`; every weakly fair execution terminates with each unscoped
  buffer at `W9`, so in particular the result buffer `main_v107` ends at `W9` read at that buffer, and the eight
  argument arrays end as launched.  The statement adds the result's conjunct to the frame claim; the launch over the
  segments is the same one.
-/
import proofs.«142511_j26182120636970_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and every argument array as launched. -/
theorem run_result : θ_run defs (onTc (τ := τ) (main (F := F))) ⟨m, fun _ => 0, ρ⟩ (fun r => ∀ c : Dev nD,
      r.2.mem ((c.tc : Thread nD τ).loc main_v107) = V9 m ρ c main_v107
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v107 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.Run

end
-- ==== Proof.Spec.lean ====
/-
  The function both programs compute, as ONE term of the eight argument arrays: a three-layer graph convolution
  on 50000 nodes with the 800000 given edges and one self-loop per node, followed by a row-wise log-softmax.

  The edge list gives source and destination endpoints; the self-loops (i, i) are appended.  A node's degree is the
  number of edges ending at it (a scatter-add of ones), its weight is deg^(-1/2) where the degree is positive and 0
  elsewhere, and an edge's coefficient is the product of its endpoints' weights.  One AGGREGATION of a node-feature
  array h gathers h's row at every edge's source, scales it by the edge's coefficient, and scatter-adds the scaled
  rows at the edge's destination.  A layer is  aggregate (a · W) , and between layers a bias row is added and
  negative entries are clamped to zero:
      out = logsoftmax (aggregate (relu (aggregate (relu (aggregate (x·W1)) + b1) · W2) + b2) · W3) + b3).
  Every piece but the log-softmax is spelt with the host operations of the reference program; the log-softmax is
  stated row by row on the extended reals (a row's maximum is the fold of max from the float −∞ over its 40 entries).  The aggregation is a function of the
  endpoint arrays, the node weights and the features it is given, so that each program's stretch of host operations
  that performs it is read as ONE application of it to whatever the stretch finds in those buffers; the chain of
  gathers and scatters is never opened.  Only the matrix products, the bias-and-clamp and the log-softmax, which the
  kernel computes block by block, are compared entry by entry.
-/
import proofs.«142511_j26182120636970_1_alg».proof.Proof.Gen.ReferenceIdeal
import Idealize.ShloMosaic.Lib.ValueIdx
import Idealize.ShloMosaic.PureOps.Ideal
import Mathlib.Data.Finset.Fold

noncomputable section

open scoped BigOperators

namespace Cert.Gcn

open Cert.ReferenceIdeal Idealize.ShloMosaic Idealize.ShloMosaic.TcCoe Idealize.SL.Sem
open Cert.ReferenceIdeal.Facts₀ Cert.ReferenceIdeal.Facts

variable {F : FTy → Type} [FloatOps F]

/-- The edges' source endpoints: row 0 of the edge list, then the self-loops' 0 … 49999. -/
def srcIdx (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The edges' destination endpoints: row 1 of the edge list, then the self-loops' 0 … 49999. -/
def dstIdx (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- An endpoint array as a column of gather start indices: a negative index counts from the end (50000 is added). -/
def startCol (s : (⟨S850000, .i32⟩ : BufTy).Contents (Elt F)) : (⟨S850000x1, .i32⟩ : BufTy).Contents (Elt F) :=
  broadcastInDim S850000x1 ![0] bcast_S850000_S850000x1_0 (select (cmpi .slt s (broadcastInDim S850000 ![] bcast_S_S850000 (constantI S_ 32 0#32))) (addi s (broadcastInDim S850000 ![] bcast_S_S850000 (constantI S_ 32 50000#32))) s)

/-- The destination endpoints as a column of scatter indices. -/
def dstCol (d : (⟨S850000, .i32⟩ : BufTy).Contents (Elt F)) : (⟨S850000x1, .i32⟩ : BufTy).Contents (Elt F) :=
  broadcastInDim S850000x1 ![0] bcast_S850000_S850000x1_0 d

/-- A node's degree: the number of edges (self-loop included) that end at it. -/
def degree (d : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (dstCol d) (broadcastInDim S850000 ![] bcast_S_S850000 (constant S_ .f32 0x3F800000#32))

/-- The node weights from the degrees: deg^(-1/2) where the degree is positive (the root taken of max(deg, 1)), 0 elsewhere. -/
def weightOfDegree (g : (⟨S50000, .f32⟩ : BufTy).Contents (Elt F)) : (⟨S50000, .f32⟩ : BufTy).Contents (Elt F) :=
  select (cmpf (F := F) .ogt g (broadcastInDim S50000 ![] bcast_S_S50000 (constant S_ .f32 0x00000000#32))) (Host.rsqrt (maximumf g (broadcastInDim S50000 ![] bcast_S_S50000 (constant S_ .f32 0x3F800000#32)))) (broadcastInDim S50000 ![] bcast_S_S50000 (id (constant S_ .f32 0x00000000#32)))

/-- A node's weight. -/
def nodeWeight (d : (⟨S850000, .i32⟩ : BufTy).Contents (Elt F)) : (⟨S50000, .f32⟩ : BufTy).Contents (Elt F) := weightOfDegree (degree d)

/-- An edge's coefficient, as a column: the product of its two endpoints' weights. -/
def edgeCoeff (s d : (⟨S850000, .i32⟩ : BufTy).Contents (Elt F)) (g : (⟨S50000, .f32⟩ : BufTy).Contents (Elt F)) : (⟨S850000x1, .f32⟩ : BufTy).Contents (Elt F) :=
  broadcastInDim S850000x1 ![0] bcast_S850000_S850000x1_0 (mulf (Host.gather gather_S50000_S850000x1_S850000_n_0_n_n_0_1_1 g (startCol s)) (Host.gather gather_S50000_S850000x1_S850000_n_0_n_n_0_1_1 g (startCol d)))

/-- One aggregation of 128 features per node: gather at the sources, scale by the coefficients, scatter-add at the destinations. -/
def aggregate128 (s d : (⟨S850000, .i32⟩ : BufTy).Contents (Elt F)) (g : (⟨S50000, .f32⟩ : BufTy).Contents (Elt F)) (h : (⟨S50000x128, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (dstCol d) (mulf (Host.gather gather_S50000x128_S850000x1_S850000x128_1_0_n_n_0_1_1128 h (startCol s)) (broadcastInDim S850000x128 ![0, 1] bcast_S850000x1_S850000x128_0_1 (edgeCoeff s d g)))

/-- One aggregation of 40 features per node. -/
def aggregate40 (s d : (⟨S850000, .i32⟩ : BufTy).Contents (Elt F)) (g : (⟨S50000, .f32⟩ : BufTy).Contents (Elt F)) (h : (⟨S50000x40, .f32⟩ : BufTy).Contents (Elt F)) : (⟨S50000x40, .f32⟩ : BufTy).Contents (Elt F) :=
  Host.scatterAdd scatter_S50000x40_S850000x1_S850000x40_1_0_0_1 (broadcastInDim S50000x40 ![] bcast_S_S50000x40 (constant S_ .f32 0x00000000#32)) (dstCol d) (mulf (Host.gather gather_S50000x40_S850000x1_S850000x40_1_0_n_n_0_1_140 h (startCol s)) (broadcastInDim S850000x40 ![0, 1] bcast_S850000x1_S850000x40_0_1 (edgeCoeff s d g)))

/-- A 128-entry bias as a row. -/
def biasRow128 (b : (⟨S128, .f32⟩ : BufTy).Contents (Elt F)) : (⟨S1x128, .f32⟩ : BufTy).Contents (Elt F) :=
  broadcastInDim S1x128 ![1] bcast_S128_S1x128_1 b

/-- A 40-entry bias as a row. -/
def biasRow40 (b : (⟨S40, .f32⟩ : BufTy).Contents (Elt F)) : (⟨S1x40, .f32⟩ : BufTy).Contents (Elt F) :=
  broadcastInDim S1x40 ![1] bcast_S40_S1x40_1 b

/-- Add a bias row to every node's 128 features and clamp negative entries to zero. -/
def biasRelu128 (a : (⟨S50000x128, .f32⟩ : BufTy).Contents (Elt F)) (b : (⟨S1x128, .f32⟩ : BufTy).Contents (Elt F)) : (⟨S50000x128, .f32⟩ : BufTy).Contents (Elt F) :=
  maximumf (addf a (broadcastInDim S50000x128 ![0, 1] bcast_S1x128_S50000x128_0_1 b)) (broadcastInDim S50000x128 ![] bcast_S_S50000x128 (constant S_ .f32 0x00000000#32))

/-- The 128 → 128 product of every node's features with a weight matrix. -/
def project128 (a : (⟨S50000x128, .f32⟩ : BufTy).Contents (Elt F)) (w : (⟨S128x128, .f32⟩ : BufTy).Contents (Elt F)) : (⟨S50000x128, .f32⟩ : BufTy).Contents (Elt F) :=
  Host.dotGeneral dot_S50000x128_S128x128_S50000x128_1_0_0_1_n_n none a w

/-- The 128 → 40 product of every node's features with a weight matrix. -/
def project40 (a : (⟨S50000x128, .f32⟩ : BufTy).Contents (Elt F)) (w : (⟨S128x40, .f32⟩ : BufTy).Contents (Elt F)) : (⟨S50000x40, .f32⟩ : BufTy).Contents (Elt F) :=
  Host.dotGeneral dot_S50000x128_S128x40_S50000x40_1_0_0_1_n_n none a w

/-- Add a bias row to every node's 40 logits. -/
def addBias40 (a : (⟨S50000x40, .f32⟩ : BufTy).Contents (Elt F)) (b : (⟨S1x40, .f32⟩ : BufTy).Contents (Elt F)) : (⟨S50000x40, .f32⟩ : BufTy).Contents (Elt F) :=
  addf a (broadcastInDim S50000x40 ![0, 1] bcast_S1x40_S50000x40_0_1 b)

/-- The largest of a row of 40 logits: the fold of max from the float −∞. -/
def rowMax (row : Fin 40 → EReal) : EReal :=
  (Finset.univ : Finset (Fin 40)).fold max (Ideal.ofBits .f32 0xFF800000#32) row

/-- The log-softmax of one row of 40 logits, at entry q: the entry less the row's maximum, less the logarithm of the
    sum of the exponentials of the row's entries less the maximum. -/
def rowLogSoftmax (row : Fin 40 → EReal) (q : Fin 40) : EReal :=
  (row q - rowMax row) - Ideal.log (∑ k : Fin 40, Ideal.exp (row k - rowMax row))

/-- The row-wise log-softmax of an array of logits, on the extended reals. -/
def logSoftmaxRows (a : (⟨S50000x40, .f32⟩ : BufTy).Contents (Elt Ideal)) : (⟨S50000x40, .f32⟩ : BufTy).Contents (Elt Ideal) :=
  fun i => rowLogSoftmax (fun k => a (ValueIdx.ix2 (i 0 : Fin 50000) k)) (i 1 : Fin 40)

/-- The first layer's output before the bias: the aggregated projection of the inputs. -/
def layer1 (s d : (⟨S850000, .i32⟩ : BufTy).Contents (Elt F)) (g : (⟨S50000, .f32⟩ : BufTy).Contents (Elt F)) (x : (⟨S50000x128, .f32⟩ : BufTy).Contents (Elt F)) (w1 : (⟨S128x128, .f32⟩ : BufTy).Contents (Elt F)) : (⟨S50000x128, .f32⟩ : BufTy).Contents (Elt F) :=
  aggregate128 s d g (project128 x w1)

/-- The three layers and the log-softmax, of the endpoint arrays, the node weights, the features and the parameters,
    on the extended reals. -/
def layers (s d : (⟨S850000, .i32⟩ : BufTy).Contents (Elt Ideal)) (g : (⟨S50000, .f32⟩ : BufTy).Contents (Elt Ideal)) (x : (⟨S50000x128, .f32⟩ : BufTy).Contents (Elt Ideal))
    (w1 : (⟨S128x128, .f32⟩ : BufTy).Contents (Elt Ideal)) (b1 : (⟨S128, .f32⟩ : BufTy).Contents (Elt Ideal)) (w2 : (⟨S128x128, .f32⟩ : BufTy).Contents (Elt Ideal)) (b2 : (⟨S128, .f32⟩ : BufTy).Contents (Elt Ideal)) (w3 : (⟨S128x40, .f32⟩ : BufTy).Contents (Elt Ideal)) (b3 : (⟨S40, .f32⟩ : BufTy).Contents (Elt Ideal)) : (⟨S50000x40, .f32⟩ : BufTy).Contents (Elt Ideal) :=
  logSoftmaxRows (addBias40 (aggregate40 s d g (project40 (biasRelu128 (aggregate128 s d g (project128 (biasRelu128 (aggregate128 s d g (project128 x w1)) (biasRow128 b1)) w2)) (biasRow128 b2)) w3)) (biasRow40 b3))

/-- The network of the eight arguments. -/
def network (x : (⟨S50000x128, .f32⟩ : BufTy).Contents (Elt Ideal)) (e : (⟨S2x800000, .i32⟩ : BufTy).Contents (Elt Ideal)) (w1 : (⟨S128x128, .f32⟩ : BufTy).Contents (Elt Ideal)) (b1 : (⟨S128, .f32⟩ : BufTy).Contents (Elt Ideal)) (w2 : (⟨S128x128, .f32⟩ : BufTy).Contents (Elt Ideal)) (b2 : (⟨S128, .f32⟩ : BufTy).Contents (Elt Ideal)) (w3 : (⟨S128x40, .f32⟩ : BufTy).Contents (Elt Ideal)) (b3 : (⟨S40, .f32⟩ : BufTy).Contents (Elt Ideal)) : (⟨S50000x40, .f32⟩ : BufTy).Contents (Elt Ideal) :=
  layers (srcIdx e) (dstIdx e) (nodeWeight (dstIdx e)) x w1 b1 w2 b2 w3 b3

end Cert.Gcn

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibDotGeneralNN.lean ====
/-
  jnp's `dot_general` on the host of a row-major `M × K` array against a `K × N` array (the right operand NOT
  transposed: the left operand's axis 1 is contracted with the right operand's axis 0), read at the extended reals:
  entry `(p, q)` of the result is the sum over `k` of `x[p, k] · w[k, q]`, whatever the schedule key and the precision.
  It is the same sum, over the same index set `Fin K` and in the same form, as the matrix unit's product into a zero
  accumulator (LibMatmulNN.matmul_zero_apply), so a kernel's `tpu.matmul` and a reference's `dot_general` of equal
  operands are equal entry by entry.  General in the three extents and in the operands' float formats.
-/
import Idealize.ShloMosaic.PureOps.Ideal.Laws
import Idealize.ShloMosaic.Lib.ValueIdx
import proofs.«142511_j26182120636970_1_alg».proof.Proof.LibMatmulNN

noncomputable section

open scoped BigOperators

namespace LibDotGeneralNN

open Idealize.ShloMosaic Idealize.ShloMosaic.ValueIdx

variable (M K N : Nat)

/-- Entry `(p, q)` of the host's `dot_general` of `x` and `w` is `∑ k, x[p, k] · w[k, q]` on the extended reals. -/
theorem dotGeneral_apply {φ₁ φ₂ : FTy} (prec : Option ContractPrecision) (sched : HostSchedule)
    (x : FVec Ideal ⟨2, ![M, K]⟩ φ₁) (w : FVec Ideal ⟨2, ![K, N]⟩ φ₂) (p : Fin M) (q : Fin N) :
    FloatOps.dotGeneral (DotDims.plain M K N) prec sched x w (ix2 p q)
      = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [LibMatmulNN.lhsIdx_eq, LibMatmulNN.rhsIdx_eq]

end LibDotGeneralNN

end
-- ==== Proof.LibColumns.lean ====
/-
  Keep-dims columns and bias rows read at an index, at any element type.
  A vector [a] laid out as a column [a, 1] — by a shape cast (a kernel's `keepdims` reduction) or by the host's
  `broadcast_in_dim` along axis 0 — reads, at (p, u), the vector at p.  A column [a, 1] broadcast by the host to
  [a, b] along axes (0, 1) reads, at (p, q), the column at (p, 0).  A vector [n] laid out as a row [1, n] by the host's
  `broadcast_in_dim` along axis 1 reads, at (u, k), the vector at k — the same array as the shape cast [n] → [1, n].
  (The row forms [1, b] → [a, b] are the library's; the column broadcast [a, 1] → [a, b] of a kernel is
  LibBroadcast2's.)
-/
import Idealize.ShloMosaic.Lib.Pipeline.Value
import Idealize.ShloMosaic.Lib.ValueIdx
import Idealize.ShloMosaic.Lib.ValueLayout

noncomputable section

namespace LibColumns

open Idealize.ShloMosaic Idealize.ShloMosaic.ValueIdx

variable {α : Type}

/-- An [a] vector cast to a column [a, 1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An [a] vector broadcast by the host along axis 0 to a column [a, 1] reads, at (p, u), the vector at p. -/
theorem broadcastInDim_a_a1_apply {a : ℕ} (h : (⟨1, ![a]⟩ : Shape).BroadcastsInDim ⟨2, ![a, 1]⟩ ![0])
    (v : (⟨1, ![a]⟩ : Shape).Idx → α) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A column [a, 1] broadcast by the host along axes (0, 1) to [a, b] reads, at (p, q), the column at (p, 0). -/
theorem broadcastInDim_a1_ab_apply {a b : ℕ} (h : (⟨2, ![a, 1]⟩ : Shape).BroadcastsInDim ⟨2, ![a, b]⟩ ![0, 1])
    (v : (⟨2, ![a, 1]⟩ : Shape).Idx → α) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- An [n] vector broadcast by the host along axis 1 to a row [1, n] reads, at (u, k), the vector at k. -/
theorem broadcastInDim_n_1n_apply {n : ℕ} (h : (⟨1, ![n]⟩ : Shape).BroadcastsInDim ⟨2, ![1, n]⟩ ![1])
    (v : (⟨1, ![n]⟩ : Shape).Idx → α) (u : Fin 1) (k : Fin n) :
    broadcastInDim ⟨2, ![1, n]⟩ ![1] h v (ix2 u k) = v (ix1 k) := by
  refine broadcastInDim_apply ![1] h v (ix2 u k) (ix1 k) fun ax => ?_
  match ax with
  | ⟨0, _⟩ =>
    show k.val = if n = 1 then 0 else k.val
    split
    · have := k.isLt; omega
    · rfl

/-- The host's row of a vector is the vector's cast to one row. -/
theorem broadcastInDim_row_eq_shapeCast {n : ℕ} (h : (⟨1, ![n]⟩ : Shape).BroadcastsInDim ⟨2, ![1, n]⟩ ![1])
    (hc : (⟨1, ![n]⟩ : Shape).ShapeCasts ⟨2, ![1, n]⟩) (v : (⟨1, ![n]⟩ : Shape).Idx → α) :
    broadcastInDim ⟨2, ![1, n]⟩ ![1] h v = shapeCast ⟨2, ![1, n]⟩ v hc := by
  funext j
  obtain ⟨u, k, rfl⟩ : ∃ (u : Fin 1) (k : Fin n), j = ix2 u k := ⟨j 0, j 1, eq_ix2 j⟩
  rw [broadcastInDim_n_1n_apply, shapeCast_a_1a_apply]

end LibColumns

end
-- ==== Proof.SpecRead.lean ====
/-
  The network's dense pieces read entry by entry on the extended reals.  Entry (r, q) of a projection a · w is the sum
  over k of a[r, k] · w[k, q]; entry (r, k) of the bias-and-clamp is max (a[r, k] + b[0, k]) 0; entry (r, q) of the
  biased logits is a[r, q] + b[0, q].  A bias laid out as a row by the host's broadcast is the same array as its cast
  to one row.  And the host's spelling of the row-wise log-softmax — the logits less the broadcast row maximum (a
  reduce of max from −∞ over axis 1, then once more the maximum with −∞, which changes nothing since the fold already
  starts from −∞), less the broadcast logarithm of the row sums of the exponentials — reads, at (r, q), as the
  log-softmax of row r at q.
-/
import proofs.«142511_j26182120636970_1_alg».proof.Proof.Spec
import proofs.«142511_j26182120636970_1_alg».proof.Proof.LibDotGeneralNN
import proofs.«142511_j26182120636970_1_alg».proof.Proof.LibColumns
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws
import Mathlib.Data.Finset.Fold

noncomputable section

open scoped BigOperators

namespace Cert.Gcn

open Cert.ReferenceIdeal Idealize.ShloMosaic Idealize.ShloMosaic.ValueIdx

/-- Entry (r, q) of the 128 → 128 projection is the sum over k of a[r, k] · w[k, q]. -/
theorem project128_apply (a : FVec Ideal S50000x128 .f32) (w : FVec Ideal S128x128 .f32) (r : Fin 50000) (q : Fin 128) :
    project128 (F := Ideal) a w (ix2 r q) = ∑ k : Fin 128, a (ix2 r k) * w (ix2 k q) :=
  LibDotGeneralNN.dotGeneral_apply 50000 128 128 none .single a w r q

/-- Entry (r, q) of the 128 → 40 projection is the sum over k of a[r, k] · w[k, q]. -/
theorem project40_apply (a : FVec Ideal S50000x128 .f32) (w : FVec Ideal S128x40 .f32) (r : Fin 50000) (q : Fin 40) :
    project40 (F := Ideal) a w (ix2 r q) = ∑ k : Fin 128, a (ix2 r k) * w (ix2 k q) :=
  LibDotGeneralNN.dotGeneral_apply 50000 128 40 none .single a w r q

/-- Entry (r, k) of the bias-and-clamp is max (a[r, k] + b[0, k]) 0. -/
theorem biasRelu128_apply (a : FVec Ideal S50000x128 .f32) (b : FVec Ideal S1x128 .f32) (r : Fin 50000) (k : Fin 128) :
    biasRelu128 (F := Ideal) a b (ix2 r k) = max (a (ix2 r k) + b (ix2 (0 : Fin 1) k)) 0 := by
  delta biasRelu128
  rw [maximumf_apply, addf_apply, broadcastInDim_oneRow_apply, broadcastInDim_scalar_apply, constant_apply, Ideal.ofBits_zero_f32]

/-- Entry (r, q) of the biased logits is a[r, q] + b[0, q]. -/
theorem addBias40_apply (a : FVec Ideal S50000x40 .f32) (b : FVec Ideal S1x40 .f32) (r : Fin 50000) (q : Fin 40) :
    addBias40 (F := Ideal) a b (ix2 r q) = a (ix2 r q) + b (ix2 (0 : Fin 1) q) := by
  delta addBias40
  rw [addf_apply, broadcastInDim_oneRow_apply]

/-- A bias laid out as a row of 128 is its cast to [1, 128]. -/
theorem biasRow128_eq (b : FVec Ideal S128 .f32) (hc : S128.ShapeCasts S1x128) : biasRow128 (F := Ideal) b = shapeCast S1x128 b hc :=
  LibColumns.broadcastInDim_row_eq_shapeCast _ hc b

/-- A bias laid out as a row of 40 is its cast to [1, 40]. -/
theorem biasRow40_eq (b : FVec Ideal S40 .f32) (hc : S40.ShapeCasts S1x40) : biasRow40 (F := Ideal) b = shapeCast S1x40 b hc :=
  LibColumns.broadcastInDim_row_eq_shapeCast _ hc b

/-- Entry (r, q) of the row-wise log-softmax is the log-softmax of row r at q. -/
theorem logSoftmaxRows_apply (a : FVec Ideal S50000x40 .f32) (r : Fin 50000) (q : Fin 40) :
    logSoftmaxRows a (ix2 r q) = rowLogSoftmax (fun k => a (ix2 r k)) q := rfl

/-- The fold of max starts from −∞, so −∞ is below it. -/
theorem le_rowMax (row : Fin 40 → EReal) : Ideal.ofBits .f32 0xFF800000#32 ≤ rowMax row := by
  delta rowMax
  exact (Finset.le_fold_max _).2 (Or.inl le_rfl)

/-- The host's logarithm at an index is the logarithm of the entry. -/
theorem hostLog_apply {s : Shape} (x : FVec Ideal s .f32) (i : s.Idx) : Host.log x i = Ideal.log (x i) := rfl

/-- The host's exponential at an index is the exponential of the entry. -/
theorem hostExp_apply {s : Shape} (x : FVec Ideal s .f32) (i : s.Idx) : Host.exp x i = Ideal.exp (x i) := rfl

/-- The logits' rows are reduced along axis 1. -/
theorem reduces40 : S50000x40.Reduces [1] S50000 := by decide

/-- Row r with coordinate k inserted on axis 1 is the index (r, k). -/
theorem lift40 (r : Fin 50000) (k : Fin 40) : reduces40.lift (ix1 r) k = ix2 r k := by
  funext a; apply Fin.ext
  match a with
  | ⟨0, _⟩ => rfl
  | ⟨1, _⟩ => rfl

/-- The host's maximum over axis 1 from −∞, at row r, is the row's maximum. -/
theorem hostRowMax_apply (a : FVec Ideal S50000x40 .f32) (h' : S50000x40.ReducesTo [1] S50000) (hu : 0 < S_.numel) (r : Fin 50000) :
    Host.reduce FloatOps.maximumf a (constant (F := Ideal) S_ .f32 0xFF800000#32) h' hu (ix1 r)
      = rowMax fun k => a (ix2 r k) := by
  rw [Host.reduce_eq_fold_single FloatOps.maximumf a _ h' reduces40 hu (ix1 r)]
  exact congrArg (fun f => Finset.fold max (Ideal.ofBits .f32 0xFF800000#32) f (Finset.univ : Finset (Fin 40)))
    (funext fun k => congrArg a (lift40 r k))

/-- The host's shifted logits — the logits less the broadcast row maximum — at (r, q): a[r, q] less row r's maximum. -/
theorem hostShifted_apply (a : FVec Ideal S50000x40 .f32) (hb : S50000x1.BroadcastsInDim S50000x40 ![0, 1])
    (hc : S50000.BroadcastsInDim S50000x1 ![0]) (hs : S_.BroadcastsInDim S50000 ![])
    (h' : S50000x40.ReducesTo [1] S50000) (hu : 0 < S_.numel) (r : Fin 50000) (q : Fin 40) :
    subf a (broadcastInDim S50000x40 ![0, 1] hb (broadcastInDim S50000x1 ![0] hc
      (maximumf (broadcastInDim S50000 ![] hs (constant (F := Ideal) S_ .f32 0xFF800000#32))
        (Host.reduce FloatOps.maximumf a (constant (F := Ideal) S_ .f32 0xFF800000#32) h' hu)))) (ix2 r q)
      = a (ix2 r q) - rowMax fun k => a (ix2 r k) := by
  rw [subf_apply, LibColumns.broadcastInDim_a1_ab_apply, LibColumns.broadcastInDim_a_a1_apply, maximumf_apply,
    broadcastInDim_scalar_apply, constant_apply, hostRowMax_apply, max_eq_right (le_rowMax _)]

/-- The host's last step — z less the broadcast logarithm of the row sums of exp z — at (r, q). -/
theorem hostLogSum_apply (z : FVec Ideal S50000x40 .f32) (hb : S50000x1.BroadcastsInDim S50000x40 ![0, 1])
    (hc : S50000.BroadcastsInDim S50000x1 ![0]) (h' : S50000x40.ReducesTo [1] S50000) (hu : 0 < S_.numel) (r : Fin 50000) (q : Fin 40) :
    subf z (broadcastInDim S50000x40 ![0, 1] hb (Host.log (broadcastInDim S50000x1 ![0] hc
      (Host.reduceAdd (Host.exp z) (constant (F := Ideal) S_ .f32 0x00000000#32) h' hu)))) (ix2 r q)
      = z (ix2 r q) - Ideal.log (∑ k : Fin 40, Ideal.exp (z (ix2 r k))) := by
  rw [subf_apply, LibColumns.broadcastInDim_a1_ab_apply, hostLog_apply, LibColumns.broadcastInDim_a_a1_apply, hostReduceAdd_apply,
    Ideal.hostReduceAdd_single h' reduces40, constant_apply, Ideal.ofBits_zero_f32, zero_add]
  refine congrArg (fun s => z (ix2 r q) - Ideal.log s) (Finset.sum_congr rfl fun k _ => ?_)
  exact (congrArg (fun j => Host.exp z j) (lift40 r k)).trans (hostExp_apply z (ix2 r k))

end Cert.Gcn

end
-- ==== Proof.Region0.lean ====
/-
  The first pallas_call: x · W1 on the matrix unit, ten row blocks of 5000 nodes.
  At grid point t the body loads rows 5000·t … 5000·t + 4999 of x and all of W1, rounds both to bf16 (the identity on
  the extended reals), multiplies them into a zero accumulator and stores the 5000 × 128 block, which is written back
  to the same rows of the output.  Entry (p, q) of the block is the sum over k of x[5000·t + p, k] · W1[k, q], which is
  entry (5000·t + p, q) of the projection x · W1; the ten blocks tile the output, so the output array ends holding the
  projection of whatever arrays the region finds in its two operand buffers.
-/
import proofs.«142511_j26182120636970_1_alg».proof.Proof.Gen.KernelIdeal.Frame
import proofs.«142511_j26182120636970_1_alg».proof.Proof.Spec
import proofs.«142511_j26182120636970_1_alg».proof.Proof.SpecRead
import Idealize.ShloMosaic.Lib.Pipeline.Value
import Idealize.ShloMosaic.Lib.ValueIdx
import Idealize.ShloMosaic.Lib.ValueLayout
import Idealize.ShloMosaic.PureOps.Ideal.Laws
import proofs.«142511_j26182120636970_1_alg».proof.Proof.LibMatmulNN
set_option maxRecDepth 16384

noncomputable section

open scoped BigOperators

namespace Cert.Gcn.K0

open Cert.KernelIdeal Cert.KernelIdeal.Gen Idealize.ShloMosaic Idealize.ShloMosaic.TcCoe Idealize.SL.Sem Idealize.ShloMosaic.ValueIdx
open Idealize.ShloMosaic.Pipeline (Dat)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the weight window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of block t is row 5000·t + p of the array. -/
def rowOf (t : Fin cfg0.N) (p : Fin 5000) : Fin 50000 :=
  ⟨5000 * t.val + p.val, by have hN : cfg0.N = 10 := N_0; have := t.isLt; have := p.isLt; omega⟩

/-- The features' block at point t, entry (p, k), is the array's entry (5000·t + p, k). -/
theorem in0_apply (c : Dev nD) (t : Fin cfg0.N) (p : Fin 5000) (k : Fin 128) :
    (iblk0 V c 0 t : Vec Ideal S5000x128 .f32) (ix2 p k) = (V c main_arg0 : S50000x128.Idx → Elt Ideal .f32) (ix2 (rowOf t p) k) := by
  obtain ⟨e0, e1, -, -, -, -⟩ := idx_facts t
  unfold iblk0
  rw [View.read_apply]
  show V c main_arg0 _ = V c main_arg0 _
  refine congrArg (V c main_arg0 : S50000x128.Idx → Elt Ideal .f32) ?_
  funext a; apply Fin.ext
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The weights' block at any point is the whole array. -/
theorem in1_apply (c : Dev nD) (t : Fin cfg0.N) (k : Fin 128) (q : Fin 128) :
    (iblk0 V c 1 t : Vec Ideal S128x128 .f32) (ix2 k q) = (V c main_arg2 : S128x128.Idx → Elt Ideal .f32) (ix2 k q) := by
  obtain ⟨-, -, e2, e3, -, -⟩ := idx_facts t
  unfold iblk0
  rw [View.read_apply]
  show V c main_arg2 _ = V c main_arg2 _
  refine congrArg (V c main_arg2 : S128x128.Idx → Elt Ideal .f32) ?_
  funext a; apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- The body's stored value at entry (p, q): the sum over k of the loaded blocks' products. -/
theorem pay_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact LibMatmulNN.matmul_zero_apply 5000 128 128 none (truncf .bf16 x0 bitsLt_bf16_f32) (truncf .bf16 x1 bitsLt_bf16_f32) p q

/-- What point t writes back is block t of the projection of the operand arrays. -/
theorem flushed_eq (c : Dev nD) (t : Fin cfg0.N) :
    (dat0 V c).flushed 2 t = ((cfg0.win 2).blk t).view.read (Elt Ideal) (project128 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  obtain ⟨-, -, -, -, e4, e5⟩ := idx_facts t
  show k0_pay1 (iblk0 V c 0 t) (iblk0 V c 1 t) (ix2 p q)
    = project128 (F := Ideal) (V c main_arg0) (V c main_arg2) (((cfg0.win 2).blk t).view.emb (ix2 p q))
  have hemb : ((cfg0.win 2).blk t).view.emb (ix2 p q) = ix2 (rowOf t p) q := by
    funext a; apply Fin.ext
    match a with
    | ⟨0, _⟩ => show win0_2.index t (0 : Fin 2) * 5000 + 1 * p.val = 5000 * t.val + p.val; rw [e4]; omega
    | ⟨1, _⟩ => show win0_2.index t (1 : Fin 2) * 128 + 1 * q.val = q.val; rw [e5]; omega
  rw [hemb]
  refine (pay_apply (iblk0 V c 0 t) (iblk0 V c 1 t) p q).trans ?_
  refine Eq.trans ?_ (project128_apply _ _ (rowOf t p) q).symm
  refine Finset.sum_congr rfl fun k _ => ?_
  rw [in0_apply V c t p k, in1_apply V c t k q]

/-- An index of the output array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v17).slice (win0_2.rect t)).set ↔ _
  rw [View.set_slice_whole, Rect.mem_set_unit]
  exact Iff.rfl

/-- Every row lies in the block of the point numbered by the row's quotient by 5000. -/
theorem cover (i : S50000x128.Idx) : ∃ t : Fin cfg0.N, (cfg0.win 2).flush t = true ∧ i ∈ ((cfg0.win 2).blk t).view.set := by
  have hN : cfg0.N = 10 := N_0
  have hi0 : (i 0).val < 50000 := (i 0).isLt
  have hi1 : (i 1).val < 128 := (i 1).isLt
  obtain ⟨t, ht⟩ : ∃ t : Fin cfg0.N, t.val = (i 0).val / 5000 := ⟨⟨(i 0).val / 5000, by omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4]; omega
  | ⟨1, _⟩ => show win0_2.index t (1 : Fin 2) * 128 ≤ (i 1).val ∧ (i 1).val < win0_2.index t (1 : Fin 2) * 128 + 128; rw [e5]; omega

/-- The output array after the region: the projection of the two operand arrays as the region found them. -/
theorem region_value (c : Dev nD) :
    (dat0 V c).arrAt 2 cfg0.N = project128 (F := Ideal) (V c main_arg0) (V c main_arg2) :=
  (dat0 V c).arrAt_eq_of_cover 2 (project128 (F := Ideal) (V c main_arg0) (V c main_arg2)) (fun t _ => flushed_eq V c t) cover

end Cert.Gcn.K0

end
-- ==== Proof.Region1.lean ====
/-
  The second pallas_call: relu (agg + b1) · W2, ten row blocks of 5000 nodes.
  At grid point t the body loads rows 5000·t … 5000·t + 4999 of the aggregated features, the bias row and all of W2,
  adds the bias row to every loaded row, clamps negative entries to zero, rounds to bf16 (the identity on the extended
  reals), multiplies into a zero accumulator and stores the 5000 × 128 block, written back to the same rows of the
  output.  Entry (p, q) of the block is the sum over k of max (agg[5000·t + p, k] + b[0, k]) 0 · W2[k, q], which is entry
  (5000·t + p, q) of the projection of the biased, clamped features; the ten blocks tile the output.
-/
import proofs.«142511_j26182120636970_1_alg».proof.Proof.Gen.KernelIdeal.Frame
import proofs.«142511_j26182120636970_1_alg».proof.Proof.Spec
import proofs.«142511_j26182120636970_1_alg».proof.Proof.SpecRead
import Idealize.ShloMosaic.Lib.Pipeline.Value
import Idealize.ShloMosaic.Lib.ValueIdx
import Idealize.ShloMosaic.Lib.ValueLayout
import Idealize.ShloMosaic.PureOps.Ideal.Laws
import proofs.«142511_j26182120636970_1_alg».proof.Proof.LibMatmulNN
set_option maxRecDepth 16384

noncomputable section

open scoped BigOperators

namespace Cert.Gcn.K1

open Cert.KernelIdeal Cert.KernelIdeal.Gen Idealize.ShloMosaic Idealize.ShloMosaic.TcCoe Idealize.SL.Sem Idealize.ShloMosaic.ValueIdx
open Idealize.ShloMosaic.Pipeline (Dat)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the bias and weight windows at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of block t is row 5000·t + p of the array. -/
def rowOf (t : Fin cfg1.N) (p : Fin 5000) : Fin 50000 :=
  ⟨5000 * t.val + p.val, by have hN : cfg1.N = 10 := N_1; have := t.isLt; have := p.isLt; omega⟩

/-- The aggregated features' block at point t, entry (p, k), is the array's entry (5000·t + p, k). -/
theorem in0_apply (c : Dev nD) (t : Fin cfg1.N) (p : Fin 5000) (k : Fin 128) :
    (iblk1 V c 0 t : Vec Ideal S5000x128 .f32) (ix2 p k) = (V c main_v45 : S50000x128.Idx → Elt Ideal .f32) (ix2 (rowOf t p) k) := by
  obtain ⟨e0, e1, -, -, -, -, -, -⟩ := idx_facts t
  unfold iblk1
  rw [View.read_apply]
  show V c main_v45 _ = V c main_v45 _
  refine congrArg (V c main_v45 : S50000x128.Idx → Elt Ideal .f32) ?_
  funext a; apply Fin.ext
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

/-- The bias row's block at any point is the whole row. -/
theorem in1_apply (c : Dev nD) (t : Fin cfg1.N) (u : Fin 1) (k : Fin 128) :
    (iblk1 V c 1 t : Vec Ideal S1x128 .f32) (ix2 u k) = (V c main_v46 : S1x128.Idx → Elt Ideal .f32) (ix2 u k) := by
  obtain ⟨-, -, e2, e3, -, -, -, -⟩ := idx_facts t
  unfold iblk1
  rw [View.read_apply]
  show V c main_v46 _ = V c main_v46 _
  refine congrArg (V c main_v46 : S1x128.Idx → Elt Ideal .f32) ?_
  funext a; apply Fin.ext
  match a with
  | ⟨0, _⟩ => show win1_1.index t (0 : Fin 2) * 1 + 1 * u.val = u.val; rw [e2]; omega
  | ⟨1, _⟩ => show win1_1.index t (1 : Fin 2) * 128 + 1 * k.val = k.val; rw [e3]; omega

/-- The weights' block at any point is the whole array. -/
theorem in2_apply (c : Dev nD) (t : Fin cfg1.N) (k : Fin 128) (q : Fin 128) :
    (iblk1 V c 2 t : Vec Ideal S128x128 .f32) (ix2 k q) = (V c main_arg4 : S128x128.Idx → Elt Ideal .f32) (ix2 k q) := by
  obtain ⟨-, -, -, -, e4, e5, -, -⟩ := idx_facts t
  unfold iblk1
  rw [View.read_apply]
  show V c main_arg4 _ = V c main_arg4 _
  refine congrArg (V c main_arg4 : S128x128.Idx → Elt Ideal .f32) ?_
  funext a; apply Fin.ext
  match a with
  | ⟨0, _⟩ => show win1_2.index t (0 : Fin 2) * 128 + 1 * k.val = k.val; rw [e4]; omega
  | ⟨1, _⟩ => show win1_2.index t (1 : Fin 2) * 128 + 1 * q.val = q.val; rw [e5]; omega

/-- The body's stored value at entry (p, q): the sum over k of the clamped biased features times the weights. -/
theorem pay_apply (x0 : Vec Ideal S5000x128 .f32) (x1 : Vec Ideal S1x128 .f32) (x2 : Vec Ideal S128x128 .f32) (p : Fin 5000) (q : Fin 128) :
    k1_pay1 x0 x1 x2 (ix2 p q) = ∑ k : Fin 128, max (x0 (ix2 p k) + x1 (ix2 (0 : Fin 1) k)) 0 * x2 (ix2 k q) := by
  unfold k1_pay1
  refine (LibMatmulNN.matmul_zero_apply 5000 128 128 none _ _ p q).trans ?_
  refine Finset.sum_congr rfl fun k _ => ?_
  rw [truncf_apply, truncf_apply, maximumf_apply, addf_apply, shapeCast_self, shapeCast_self, broadcastTo_1b_ab_apply, broadcast_apply]
  show max (x0 (ix2 p k) + x1 (ix2 (0 : Fin 1) k)) (Ideal.ofBits .f32 0x00000000#32) * x2 (ix2 k q) = _
  rw [Ideal.ofBits_zero_f32]

/-- What point t writes back is block t of the layer's product of the operand arrays. -/
theorem flushed_eq (c : Dev nD) (t : Fin cfg1.N) :
    (dat1 V c).flushed 3 t = ((cfg1.win 3).blk t).view.read (Elt Ideal)
      (project128 (F := Ideal) (biasRelu128 (F := Ideal) (V c main_v45) (V c main_v46)) (V c main_arg4)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x128) hz]
  funext j
  obtain ⟨p, q, rfl⟩ : ∃ (p : Fin 5000) (q : Fin 128), j = ix2 p q := ⟨j 0, j 1, eq_ix2 j⟩
  obtain ⟨-, -, -, -, -, -, e6, e7⟩ := idx_facts t
  show k1_pay1 (iblk1 V c 0 t) (iblk1 V c 1 t) (iblk1 V c 2 t) (ix2 p q)
    = project128 (F := Ideal) (biasRelu128 (F := Ideal) (V c main_v45) (V c main_v46)) (V c main_arg4) (((cfg1.win 3).blk t).view.emb (ix2 p q))
  have hemb : ((cfg1.win 3).blk t).view.emb (ix2 p q) = ix2 (rowOf t p) q := by
    funext a; apply Fin.ext
    match a with
    | ⟨0, _⟩ => show win1_3.index t (0 : Fin 2) * 5000 + 1 * p.val = 5000 * t.val + p.val; rw [e6]; omega
    | ⟨1, _⟩ => show win1_3.index t (1 : Fin 2) * 128 + 1 * q.val = q.val; rw [e7]; omega
  rw [hemb]
  refine (pay_apply (iblk1 V c 0 t) (iblk1 V c 1 t) (iblk1 V c 2 t) p q).trans ?_
  refine Eq.trans ?_ (project128_apply _ _ (rowOf t p) q).symm
  refine Finset.sum_congr rfl fun k _ => ?_
  rw [biasRelu128_apply, in0_apply V c t p k, in1_apply V c t 0 k, in2_apply V c t k q]

/-- An index of the output array is in point t's block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v47).slice (win1_3.rect t)).set ↔ _
  rw [View.set_slice_whole, Rect.mem_set_unit]
  exact Iff.rfl

/-- Every row lies in the block of the point numbered by the row's quotient by 5000. -/
theorem cover (i : S50000x128.Idx) : ∃ t : Fin cfg1.N, (cfg1.win 3).flush t = true ∧ i ∈ ((cfg1.win 3).blk t).view.set := by
  have hN : cfg1.N = 10 := N_1
  have hi0 : (i 0).val < 50000 := (i 0).isLt
  have hi1 : (i 1).val < 128 := (i 1).isLt
  obtain ⟨t, ht⟩ : ∃ t : Fin cfg1.N, t.val = (i 0).val / 5000 := ⟨⟨(i 0).val / 5000, by omega⟩, rfl⟩
  obtain ⟨-, -, -, -, -, -, e6, e7⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; rw [e6]; omega
  | ⟨1, _⟩ => show win1_3.index t (1 : Fin 2) * 128 ≤ (i 1).val ∧ (i 1).val < win1_3.index t (1 : Fin 2) * 128 + 128; rw [e7]; omega

/-- The output array after the region: the layer's product of the three operand arrays as the region found them. -/
theorem region_value (c : Dev nD) :
    (dat1 V c).arrAt 3 cfg1.N = project128 (F := Ideal) (biasRelu128 (F := Ideal) (V c main_v45) (V c main_v46)) (V c main_arg4) :=
  (dat1 V c).arrAt_eq_of_cover 3 (project128 (F := Ideal) (biasRelu128 (F := Ideal) (V c main_v45) (V c main_v46)) (V c main_arg4)) (fun t _ => flushed_eq V c t) cover

end Cert.Gcn.K1

end
-- ==== Proof.Region2.lean ====
/-
  The third pallas_call: relu (agg + b2) · W3, ten row blocks of 5000 nodes, 128 features in and 40 out.
  At grid point t the body loads rows 5000·t … 5000·t + 4999 of the aggregated features, the bias row and all of W3,
  adds the bias row to every loaded row, clamps negative entries to zero, rounds to bf16 (the identity on the extended
  reals), multiplies into a zero accumulator and stores the 5000 × 40 block, written back to the same rows of the
  output.  Entry (p, q) of the block is the sum over k of max (agg[5000·t + p, k] + b[0, k]) 0 · W3[k, q], which is entry
  (5000·t + p, q) of the projection of the biased, clamped features; the ten blocks tile the output.
-/
import proofs.«142511_j26182120636970_1_alg».proof.Proof.Gen.KernelIdeal.Frame
import proofs.«142511_j26182120636970_1_alg».proof.Proof.Spec
import proofs.«142511_j26182120636970_1_alg».proof.Proof.SpecRead
import Idealize.ShloMosaic.Lib.Pipeline.Value
import Idealize.ShloMosaic.Lib.ValueIdx
import Idealize.ShloMosaic.Lib.ValueLayout
import Idealize.ShloMosaic.PureOps.Ideal.Laws
import proofs.«142511_j26182120636970_1_alg».proof.Proof.LibMatmulNN
set_option maxRecDepth 16384

noncomputable section

open scoped BigOperators

namespace Cert.Gcn.K2

open Cert.KernelIdeal Cert.KernelIdeal.Gen Idealize.ShloMosaic Idealize.ShloMosaic.TcCoe Idealize.SL.Sem Idealize.ShloMosaic.ValueIdx
open Idealize.ShloMosaic.Pipeline (Dat)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the bias and weight windows at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of block t is row 5000·t + p of the array. -/
def rowOf (t : Fin cfg2.N) (p : Fin 5000) : Fin 50000 :=
  ⟨5000 * t.val + p.val, by have hN : cfg2.N = 10 := N_2; have := t.isLt; have := p.isLt; omega⟩

/-- The aggregated features' block at point t, entry (p, k), is the array's entry (5000·t + p, k). -/
theorem in0_apply (c : Dev nD) (t : Fin cfg2.N) (p : Fin 5000) (k : Fin 128) :
    (iblk2 V c 0 t : Vec Ideal S5000x128 .f32) (ix2 p k) = (V c main_v75 : S50000x128.Idx → Elt Ideal .f32) (ix2 (rowOf t p) k) := by
  obtain ⟨e0, e1, -, -, -, -, -, -⟩ := idx_facts t
  unfold iblk2
  rw [View.read_apply]
  show V c main_v75 _ = V c main_v75 _
  refine congrArg (V c main_v75 : S50000x128.Idx → Elt Ideal .f32) ?_
  funext a; apply Fin.ext
  match a with
  | ⟨0, _⟩ => show win2_0.index t (0 : Fin 2) * 5000 + 1 * p.val = 5000 * t.val + p.val; rw [e0]; omega
  | ⟨1, _⟩ => show win2_0.index t (1 : Fin 2) * 128 + 1 * k.val = k.val; rw [e1]; omega

/-- The bias row's block at any point is the whole row. -/
theorem in1_apply (c : Dev nD) (t : Fin cfg2.N) (u : Fin 1) (k : Fin 128) :
    (iblk2 V c 1 t : Vec Ideal S1x128 .f32) (ix2 u k) = (V c main_v76 : S1x128.Idx → Elt Ideal .f32) (ix2 u k) := by
  obtain ⟨-, -, e2, e3, -, -, -, -⟩ := idx_facts t
  unfold iblk2
  rw [View.read_apply]
  show V c main_v76 _ = V c main_v76 _
  refine congrArg (V c main_v76 : S1x128.Idx → Elt Ideal .f32) ?_
  funext a; apply Fin.ext
  match a with
  | ⟨0, _⟩ => show win2_1.index t (0 : Fin 2) * 1 + 1 * u.val = u.val; rw [e2]; omega
  | ⟨1, _⟩ => show win2_1.index t (1 : Fin 2) * 128 + 1 * k.val = k.val; rw [e3]; omega

/-- The weights' block at any point is the whole array. -/
theorem in2_apply (c : Dev nD) (t : Fin cfg2.N) (k : Fin 128) (q : Fin 40) :
    (iblk2 V c 2 t : Vec Ideal S128x40 .f32) (ix2 k q) = (V c main_arg6 : S128x40.Idx → Elt Ideal .f32) (ix2 k q) := by
  obtain ⟨-, -, -, -, e4, e5, -, -⟩ := idx_facts t
  unfold iblk2
  rw [View.read_apply]
  show V c main_arg6 _ = V c main_arg6 _
  refine congrArg (V c main_arg6 : S128x40.Idx → Elt Ideal .f32) ?_
  funext a; apply Fin.ext
  match a with
  | ⟨0, _⟩ => show win2_2.index t (0 : Fin 2) * 128 + 1 * k.val = k.val; rw [e4]; omega
  | ⟨1, _⟩ => show win2_2.index t (1 : Fin 2) * 40 + 1 * q.val = q.val; rw [e5]; omega

/-- The body's stored value at entry (p, q): the sum over k of the clamped biased features times the weights. -/
theorem pay_apply (x0 : Vec Ideal S5000x128 .f32) (x1 : Vec Ideal S1x128 .f32) (x2 : Vec Ideal S128x40 .f32) (p : Fin 5000) (q : Fin 40) :
    k2_pay1 x0 x1 x2 (ix2 p q) = ∑ k : Fin 128, max (x0 (ix2 p k) + x1 (ix2 (0 : Fin 1) k)) 0 * x2 (ix2 k q) := by
  unfold k2_pay1
  refine (LibMatmulNN.matmul_zero_apply 5000 128 40 none _ _ p q).trans ?_
  refine Finset.sum_congr rfl fun k _ => ?_
  rw [truncf_apply, truncf_apply, maximumf_apply, addf_apply, shapeCast_self, shapeCast_self, broadcastTo_1b_ab_apply, broadcast_apply]
  show max (x0 (ix2 p k) + x1 (ix2 (0 : Fin 1) k)) (Ideal.ofBits .f32 0x00000000#32) * x2 (ix2 k q) = _
  rw [Ideal.ofBits_zero_f32]

/-- What point t writes back is block t of the layer's product of the operand arrays. -/
theorem flushed_eq (c : Dev nD) (t : Fin cfg2.N) :
    (dat2 V c).flushed 3 t = ((cfg2.win 3).blk t).view.read (Elt Ideal)
      (project40 (F := Ideal) (biasRelu128 (F := Ideal) (V c main_v75) (V c main_v76)) (V c main_arg6)) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz, View.ld_unit_zero (S := S128x40) hz]
  funext j
  obtain ⟨p, q, rfl⟩ : ∃ (p : Fin 5000) (q : Fin 40), j = ix2 p q := ⟨j 0, j 1, eq_ix2 j⟩
  obtain ⟨-, -, -, -, -, -, e6, e7⟩ := idx_facts t
  show k2_pay1 (iblk2 V c 0 t) (iblk2 V c 1 t) (iblk2 V c 2 t) (ix2 p q)
    = project40 (F := Ideal) (biasRelu128 (F := Ideal) (V c main_v75) (V c main_v76)) (V c main_arg6) (((cfg2.win 3).blk t).view.emb (ix2 p q))
  have hemb : ((cfg2.win 3).blk t).view.emb (ix2 p q) = ix2 (rowOf t p) q := by
    funext a; apply Fin.ext
    match a with
    | ⟨0, _⟩ => show win2_3.index t (0 : Fin 2) * 5000 + 1 * p.val = 5000 * t.val + p.val; rw [e6]; omega
    | ⟨1, _⟩ => show win2_3.index t (1 : Fin 2) * 40 + 1 * q.val = q.val; rw [e7]; omega
  rw [hemb]
  refine (pay_apply (iblk2 V c 0 t) (iblk2 V c 1 t) (iblk2 V c 2 t) p q).trans ?_
  refine Eq.trans ?_ (project40_apply _ _ (rowOf t p) q).symm
  refine Finset.sum_congr rfl fun k _ => ?_
  rw [biasRelu128_apply, in0_apply V c t p k, in1_apply V c t 0 k, in2_apply V c t k q]

/-- An index of the output array is in point t's block iff each coordinate is in the block's range on its axis. -/
theorem mem_blk (t : Fin cfg2.N) (i : S50000x40.Idx) :
    i ∈ ((cfg2.win 3).blk t).view.set ↔ ∀ a : Fin 2, win2_3.index t a * S5000x40.size a ≤ (i a).val ∧ (i a).val < win2_3.index t a * S5000x40.size a + S5000x40.size a := by
  show i ∈ ((View.whole main_v77).slice (win2_3.rect t)).set ↔ _
  rw [View.set_slice_whole, Rect.mem_set_unit]
  exact Iff.rfl

/-- Every row lies in the block of the point numbered by the row's quotient by 5000. -/
theorem cover (i : S50000x40.Idx) : ∃ t : Fin cfg2.N, (cfg2.win 3).flush t = true ∧ i ∈ ((cfg2.win 3).blk t).view.set := by
  have hN : cfg2.N = 10 := N_2
  have hi0 : (i 0).val < 50000 := (i 0).isLt
  have hi1 : (i 1).val < 40 := (i 1).isLt
  obtain ⟨t, ht⟩ : ∃ t : Fin cfg2.N, t.val = (i 0).val / 5000 := ⟨⟨(i 0).val / 5000, by omega⟩, rfl⟩
  obtain ⟨-, -, -, -, -, -, e6, e7⟩ := idx_facts t
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; rw [e6]; omega
  | ⟨1, _⟩ => show win2_3.index t (1 : Fin 2) * 40 ≤ (i 1).val ∧ (i 1).val < win2_3.index t (1 : Fin 2) * 40 + 40; rw [e7]; omega

/-- The output array after the region: the layer's product of the three operand arrays as the region found them. -/
theorem region_value (c : Dev nD) :
    (dat2 V c).arrAt 3 cfg2.N = project40 (F := Ideal) (biasRelu128 (F := Ideal) (V c main_v75) (V c main_v76)) (V c main_arg6) :=
  (dat2 V c).arrAt_eq_of_cover 3 (project40 (F := Ideal) (biasRelu128 (F := Ideal) (V c main_v75) (V c main_v76)) (V c main_arg6)) (fun t _ => flushed_eq V c t) cover

end Cert.Gcn.K2

end
-- ==== Proof.LibBroadcast2.lean ====
/-
  Two keep-dims broadcasts of small matrices read at an index: a column `[a, 1]` broadcast along the lanes to
  `[a, b]` reads, at `(p, c)`, the column's element `p`; a single element `[1, 1]` broadcast to `[a, b]` reads that
  element everywhere. (The row form `[1, b] → [a, b]` is the library's.)
-/
import Idealize.ShloMosaic.Lib.Pipeline.Value
import Idealize.ShloMosaic.Lib.ValueIdx

noncomputable section

namespace LibBroadcast2

open Idealize.ShloMosaic Idealize.ShloMosaic.ValueIdx

variable {α : Type}

/-- A `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast to `[a, b]` reads its one element everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end LibBroadcast2

end
-- ==== Proof.Region3.lean ====
/-
  The fourth pallas_call: log_softmax (agg + b3) over the 40 classes, ten row blocks of 5000 nodes.
  At grid point t the body loads rows 5000·t … 5000·t + 4999 of the aggregated logits and the bias row, adds the bias
  row to every loaded row, takes every row's maximum (a lane reduction of max from −∞), subtracts it, takes the
  exponentials, sums them along the row (a lane reduction of + from 0), takes the logarithm and subtracts it, and stores
  the 5000 × 40 block, written back to the same rows of the output.  Entry (p, q) of the block is the log-softmax of row
  p of the biased block at q, and row p of the biased block is row 5000·t + p of the biased logits; the ten blocks tile
  the output, so the output array ends holding the row-wise log-softmax of the biased logits.
-/
import proofs.«142511_j26182120636970_1_alg».proof.Proof.Gen.KernelIdeal.Frame
import proofs.«142511_j26182120636970_1_alg».proof.Proof.Spec
import proofs.«142511_j26182120636970_1_alg».proof.Proof.SpecRead
import Idealize.ShloMosaic.Lib.Pipeline.Value
import Idealize.ShloMosaic.Lib.ValueIdx
import Idealize.ShloMosaic.Lib.ValueLayout
import Idealize.ShloMosaic.PureOps.Ideal.Laws
import proofs.«142511_j26182120636970_1_alg».proof.Proof.LibBroadcast2
import proofs.«142511_j26182120636970_1_alg».proof.Proof.LibColumns
set_option maxRecDepth 16384

noncomputable section

open scoped BigOperators

namespace Cert.Gcn.K3

open Cert.KernelIdeal Cert.KernelIdeal.Gen Idealize.ShloMosaic Idealize.ShloMosaic.TcCoe Idealize.SL.Sem Idealize.ShloMosaic.ValueIdx
open Idealize.ShloMosaic.Pipeline (Dat)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the bias window at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of block t is row 5000·t + p of the array. -/
def rowOf (t : Fin cfg3.N) (p : Fin 5000) : Fin 50000 :=
  ⟨5000 * t.val + p.val, by have hN : cfg3.N = 10 := N_3; have := t.isLt; have := p.isLt; omega⟩

/-- The aggregated logits' block at point t, entry (p, k), is the array's entry (5000·t + p, k). -/
theorem in0_apply (c : Dev nD) (t : Fin cfg3.N) (p : Fin 5000) (k : Fin 40) :
    (iblk3 V c 0 t : Vec Ideal S5000x40 .f32) (ix2 p k) = (V c main_v105 : S50000x40.Idx → Elt Ideal .f32) (ix2 (rowOf t p) k) := by
  obtain ⟨e0, e1, -, -, -, -⟩ := idx_facts t
  unfold iblk3
  rw [View.read_apply]
  show V c main_v105 _ = V c main_v105 _
  refine congrArg (V c main_v105 : S50000x40.Idx → Elt Ideal .f32) ?_
  funext a; apply Fin.ext
  match a with
  | ⟨0, _⟩ => show win3_0.index t (0 : Fin 2) * 5000 + 1 * p.val = 5000 * t.val + p.val; rw [e0]; omega
  | ⟨1, _⟩ => show win3_0.index t (1 : Fin 2) * 40 + 1 * k.val = k.val; rw [e1]; omega

/-- The bias row's block at any point is the whole row. -/
theorem in1_apply (c : Dev nD) (t : Fin cfg3.N) (u : Fin 1) (k : Fin 40) :
    (iblk3 V c 1 t : Vec Ideal S1x40 .f32) (ix2 u k) = (V c main_v106 : S1x40.Idx → Elt Ideal .f32) (ix2 u k) := by
  obtain ⟨-, -, e2, e3, -, -⟩ := idx_facts t
  unfold iblk3
  rw [View.read_apply]
  show V c main_v106 _ = V c main_v106 _
  refine congrArg (V c main_v106 : S1x40.Idx → Elt Ideal .f32) ?_
  funext a; apply Fin.ext
  match a with
  | ⟨0, _⟩ => show win3_1.index t (0 : Fin 2) * 1 + 1 * u.val = u.val; rw [e2]; omega
  | ⟨1, _⟩ => show win3_1.index t (1 : Fin 2) * 40 + 1 * k.val = k.val; rw [e3]; omega

/-! ## The body's arithmetic, entry by entry -/

/-- Row p with coordinate k inserted on axis 1 is the index (p, k). -/
theorem liftK (h : S5000x40.Reduces [1] S5000) (p : Fin 5000) (k : Fin 40) : h.lift (ix1 p) k = ix2 p k := by
  funext a; apply Fin.ext
  match a with
  | ⟨0, _⟩ => rfl
  | ⟨1, _⟩ => rfl

theorem kLog_apply {s : Shape} (x : FVec Ideal s .f32) (i : s.Idx) : log x i = Ideal.log (x i) := rfl
theorem kExp_apply {s : Shape} (x : FVec Ideal s .f32) (i : s.Idx) : exp x i = Ideal.exp (x i) := rfl

/-- A lane reduction of max from −∞ over a block's rows, at row p, is the row's maximum. -/
theorem kRowMax_apply (A : FVec Ideal S5000x40 .f32) (h : S5000x40.Reduces [1] S5000) (hφ : FKind.Formats .f32)
    (hacc : (0xFF800000#32 : BitVec 32) = FKind.maximumf.neutral .f32 hφ) (p : Fin 5000) :
    multiReduction .maximumf [1] S5000 A 0xFF800000#32 h hφ hacc (ix1 p) = rowMax fun k => A (ix2 p k) :=
  (Ideal.multiReduction_maximumf_single A _ h hφ hacc (ix1 p)).trans
    (congrArg (fun f => Finset.fold max (Ideal.ofBits .f32 0xFF800000#32) f (Finset.univ : Finset (Fin 40)))
      (funext fun k => congrArg A (liftK h p k)))

/-- A block less its keep-dims row maxima, at (p, q). -/
theorem kShifted_apply (A : FVec Ideal S5000x40 .f32) (hsc : S5000.ShapeCasts S5000x1) (hbc : S5000x1.Broadcasts S5000x40)
    (h : S5000x40.Reduces [1] S5000) (hφ : FKind.Formats .f32) (hacc : (0xFF800000#32 : BitVec 32) = FKind.maximumf.neutral .f32 hφ)
    (p : Fin 5000) (q : Fin 40) :
    subf A (broadcastTo S5000x40 (shapeCast S5000x1 (multiReduction .maximumf [1] S5000 A 0xFF800000#32 h hφ hacc) hsc) hbc) (ix2 p q)
      = A (ix2 p q) - rowMax fun k => A (ix2 p k) := by
  rw [subf_apply, LibBroadcast2.broadcastTo_a1_ab_apply, LibColumns.shapeCast_a_a1_apply]
  exact congrArg (fun m => A (ix2 p q) - m) (kRowMax_apply A h hφ hacc p)

/-- A block less the keep-dims logarithm of its rows' sums of exponentials, at (p, q). -/
theorem kLogSum_apply (z : FVec Ideal S5000x40 .f32) (hsc : S5000.ShapeCasts S5000x1) (hbc : S5000x1.Broadcasts S5000x40)
    (h : S5000x40.Reduces [1] S5000) (hφ : FKind.Formats .f32) (hacc : (0x00000000#32 : BitVec 32) = FKind.add.neutral .f32 hφ)
    (p : Fin 5000) (q : Fin 40) :
    subf z (broadcastTo S5000x40 (log (shapeCast S5000x1 (multiReduction .add [1] S5000 (exp z) 0x00000000#32 h hφ hacc) hsc)) hbc) (ix2 p q)
      = z (ix2 p q) - Ideal.log (∑ k : Fin 40, Ideal.exp (z (ix2 p k))) := by
  rw [subf_apply, LibBroadcast2.broadcastTo_a1_ab_apply, kLog_apply, LibColumns.shapeCast_a_a1_apply]
  refine congrArg (fun s => z (ix2 p q) - Ideal.log s) ?_
  refine (Ideal.multiReduction_add_single (exp z) _ h hφ hacc (ix1 p)).trans (Finset.sum_congr rfl fun k _ => ?_)
  exact (congrArg (fun j => exp z j) (liftK h p k)).trans (kExp_apply z (ix2 p k))

/-- The loaded block with the bias row added to every row. -/
def biased (x0 : Vec Ideal S5000x40 .f32) (x1 : Vec Ideal S1x40 .f32) : FVec Ideal S5000x40 .f32 :=
  addf (shapeCast S5000x40 x0 shapeCasts_S5000x40_S5000x40) (broadcastTo S5000x40 (shapeCast S1x40 x1 shapeCasts_S1x40_S1x40) broadcasts_S1x40_S5000x40)

theorem biased_apply (x0 : Vec Ideal S5000x40 .f32) (x1 : Vec Ideal S1x40 .f32) (p : Fin 5000) (k : Fin 40) :
    biased x0 x1 (ix2 p k) = x0 (ix2 p k) + x1 (ix2 (0 : Fin 1) k) := by
  delta biased
  rw [addf_apply, shapeCast_self, shapeCast_self, broadcastTo_1b_ab_apply]

/-- The biased block less its row maxima. -/
def shiftedBlock (x0 : Vec Ideal S5000x40 .f32) (x1 : Vec Ideal S1x40 .f32) : FVec Ideal S5000x40 .f32 :=
  subf (biased x0 x1) (broadcastTo S5000x40 (shapeCast S5000x1 (multiReduction .maximumf [1] S5000 (biased x0 x1) 0xFF800000#32 reduces_S5000x40_S5000 (.inl rfl) rfl) shapeCasts_S5000_S5000x1) broadcasts_S5000x1_S5000x40)

theorem shiftedBlock_apply (x0 : Vec Ideal S5000x40 .f32) (x1 : Vec Ideal S1x40 .f32) (p : Fin 5000) (k : Fin 40) :
    shiftedBlock x0 x1 (ix2 p k) = (x0 (ix2 p k) + x1 (ix2 (0 : Fin 1) k)) - rowMax fun j => x0 (ix2 p j) + x1 (ix2 (0 : Fin 1) j) := by
  delta shiftedBlock
  refine (kShifted_apply (biased x0 x1) _ _ _ _ _ p k).trans ?_
  rw [biased_apply]
  exact congrArg (fun m => (x0 (ix2 p k) + x1 (ix2 (0 : Fin 1) k)) - rowMax m) (funext fun j => biased_apply x0 x1 p j)

/-- The body's stored value at entry (p, q): the log-softmax of row p of the biased block, at q. -/
theorem pay_apply (x0 : Vec Ideal S5000x40 .f32) (x1 : Vec Ideal S1x40 .f32) (p : Fin 5000) (q : Fin 40) :
    k3_pay1 x0 x1 (ix2 p q) = rowLogSoftmax (fun k => x0 (ix2 p k) + x1 (ix2 (0 : Fin 1) k)) q := by
  show subf (shiftedBlock x0 x1) (broadcastTo S5000x40 (log (shapeCast S5000x1 (multiReduction .add [1] S5000 (exp (shiftedBlock x0 x1)) 0x00000000#32 reduces_S5000x40_S5000 (.inl rfl) rfl) shapeCasts_S5000_S5000x1)) broadcasts_S5000x1_S5000x40) (ix2 p q) = _
  refine (kLogSum_apply (shiftedBlock x0 x1) _ _ _ _ _ p q).trans ?_
  delta rowLogSoftmax
  rw [shiftedBlock_apply]
  exact congrArg (fun s => _ - Ideal.log s) (Finset.sum_congr rfl fun k _ => by rw [shiftedBlock_apply])

/-- What point t writes back is block t of the row-wise log-softmax of the biased logits. -/
theorem flushed_eq (c : Dev nD) (t : Fin cfg3.N) :
    (dat3 V c).flushed 2 t = ((cfg3.win 2).blk t).view.read (Elt Ideal)
      (logSoftmaxRows (addBias40 (F := Ideal) (V c main_v105) (V c main_v106))) := by
  show (cfg3.win 2).cut (grid3.coords t) ((dat3 V c).after 2 t) = _
  rw [after3_2]
  unfold out3_2
  rw [View.canon_unit_zero hz]
  simp only [View.ld_unit_zero (S := S5000x40) hz, View.ld_unit_zero (S := S1x40) hz]
  funext j
  obtain ⟨p, q, rfl⟩ : ∃ (p : Fin 5000) (q : Fin 40), j = ix2 p q := ⟨j 0, j 1, eq_ix2 j⟩
  obtain ⟨-, -, -, -, e4, e5⟩ := idx_facts t
  show k3_pay1 (iblk3 V c 0 t) (iblk3 V c 1 t) (ix2 p q)
    = logSoftmaxRows (addBias40 (F := Ideal) (V c main_v105) (V c main_v106)) (((cfg3.win 2).blk t).view.emb (ix2 p q))
  have hemb : ((cfg3.win 2).blk t).view.emb (ix2 p q) = ix2 (rowOf t p) q := by
    funext a; apply Fin.ext
    match a with
    | ⟨0, _⟩ => show win3_2.index t (0 : Fin 2) * 5000 + 1 * p.val = 5000 * t.val + p.val; rw [e4]; omega
    | ⟨1, _⟩ => show win3_2.index t (1 : Fin 2) * 40 + 1 * q.val = q.val; rw [e5]; omega
  rw [hemb]
  refine (pay_apply (iblk3 V c 0 t) (iblk3 V c 1 t) p q).trans ?_
  rw [logSoftmaxRows_apply]
  refine congrArg (fun row => rowLogSoftmax row q) (funext fun k => ?_)
  rw [addBias40_apply, in0_apply V c t p k, in1_apply V c t 0 k]

/-- An index of the output array is in point t's block iff each coordinate is in the block's range on its axis. -/
theorem mem_blk (t : Fin cfg3.N) (i : S50000x40.Idx) :
    i ∈ ((cfg3.win 2).blk t).view.set ↔ ∀ a : Fin 2, win3_2.index t a * S5000x40.size a ≤ (i a).val ∧ (i a).val < win3_2.index t a * S5000x40.size a + S5000x40.size a := by
  show i ∈ ((View.whole main_v107).slice (win3_2.rect t)).set ↔ _
  rw [View.set_slice_whole, Rect.mem_set_unit]
  exact Iff.rfl

/-- Every row lies in the block of the point numbered by the row's quotient by 5000. -/
theorem cover (i : S50000x40.Idx) : ∃ t : Fin cfg3.N, (cfg3.win 2).flush t = true ∧ i ∈ ((cfg3.win 2).blk t).view.set := by
  have hN : cfg3.N = 10 := N_3
  have hi0 : (i 0).val < 50000 := (i 0).isLt
  have hi1 : (i 1).val < 40 := (i 1).isLt
  obtain ⟨t, ht⟩ : ∃ t : Fin cfg3.N, t.val = (i 0).val / 5000 := ⟨⟨(i 0).val / 5000, by omega⟩, rfl⟩
  obtain ⟨-, -, -, -, e4, e5⟩ := idx_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; rw [e4]; omega
  | ⟨1, _⟩ => show win3_2.index t (1 : Fin 2) * 40 ≤ (i 1).val ∧ (i 1).val < win3_2.index t (1 : Fin 2) * 40 + 40; rw [e5]; omega

/-- The output array after the region: the row-wise log-softmax of the biased logits as the region found them. -/
theorem region_value (c : Dev nD) :
    (dat3 V c).arrAt 2 cfg3.N = logSoftmaxRows (addBias40 (F := Ideal) (V c main_v105) (V c main_v106)) :=
  (dat3 V c).arrAt_eq_of_cover 2 (logSoftmaxRows (addBias40 (F := Ideal) (V c main_v105) (V c main_v106))) (fun t _ => flushed_eq V c t) cover

end Cert.Gcn.K3

end
-- ==== Proof.KernelStages.lean ====
/-
  The idealized kernel's result, read off the fold of its nine segments.  Each stretch of host operations, entered at
  ANY contents V of the buffers, leaves what the reference's corresponding operations leave: the first stretches the
  endpoint arrays and the node weights as functions of the edge list; each later stretch ONE aggregation of what it
  finds in the endpoint, weight and previous-product buffers, and the next bias cast to a row.  Each region leaves in
  its output array the dense step of what it finds in its operand arrays (the four region lemmas) and keeps every
  other buffer.  Walking the fold back from the result buffer through the four regions and five stretches to the
  launch contents gives the network function of the eight arguments — the kernel's bias rows are casts where the
  reference's are broadcasts, which is the same array.
-/
import proofs.«142511_j26182120636970_1_alg».proof.Proof.Gen.KernelIdeal.Frame
import proofs.«142511_j26182120636970_1_alg».proof.Proof.Spec
import proofs.«142511_j26182120636970_1_alg».proof.Proof.SpecRead
import proofs.«142511_j26182120636970_1_alg».proof.Proof.Region0
import proofs.«142511_j26182120636970_1_alg».proof.Proof.Region1
import proofs.«142511_j26182120636970_1_alg».proof.Proof.Region2
import proofs.«142511_j26182120636970_1_alg».proof.Proof.Region3
import Idealize.ShloMosaic.Lib.StableHlo.Run

set_option maxRecDepth 16384

noncomputable section

namespace Cert.Gcn.Ker

open Cert.KernelIdeal Cert.KernelIdeal.Gen Idealize.ShloMosaic Idealize.ShloMosaic.TcCoe Idealize.SL.Sem Idealize.ShloMosaic.StableHlo
open Cert.Gcn

section Stretches

variable {F : FTy → Type} [FloatOps F]

/-! ## What each stretch of host operations leaves -/

theorem H0_src (V : Valuation τ sig (Elt F)) : after hostOps0 V (Proc.devRef .tc main_v3) = srcIdx (V (Proc.devRef .tc main_arg1)) := by
  after_results_simp <;> rfl
theorem H0_dst (V : Valuation τ sig (Elt F)) : after hostOps0 V (Proc.devRef .tc main_v6) = dstIdx (V (Proc.devRef .tc main_arg1)) := by
  after_results_simp <;> rfl
theorem H01_weight (V : Valuation τ sig (Elt F)) : after hostOps0_1 (after hostOps0 V) (Proc.devRef .tc main_v16) = nodeWeight (dstIdx (V (Proc.devRef .tc main_arg1))) := by
  after_results_simp <;> rfl

theorem H1_agg (V : Valuation τ sig (Elt F)) : after hostOps1 V (Proc.devRef .tc main_v45)
    = aggregate128 (V (Proc.devRef .tc main_v3)) (V (Proc.devRef .tc main_v6)) (V (Proc.devRef .tc main_v16)) (V (Proc.devRef .tc main_v17)) := by
  after_results_simp <;> rfl
theorem H1_bias (V : Valuation τ sig (Elt F)) : after hostOps1 V (Proc.devRef .tc main_v46)
    = shapeCast Cert.ReferenceIdeal.S1x128 (V (Proc.devRef .tc main_arg3)) Facts₀.shapeCasts_S128_S1x128 := by
  after_results_simp <;> rfl

theorem H2_agg (V : Valuation τ sig (Elt F)) : after hostOps2 V (Proc.devRef .tc main_v75)
    = aggregate128 (V (Proc.devRef .tc main_v3)) (V (Proc.devRef .tc main_v6)) (V (Proc.devRef .tc main_v16)) (V (Proc.devRef .tc main_v47)) := by
  after_results_simp <;> rfl
theorem H2_bias (V : Valuation τ sig (Elt F)) : after hostOps2 V (Proc.devRef .tc main_v76)
    = shapeCast Cert.ReferenceIdeal.S1x128 (V (Proc.devRef .tc main_arg5)) Facts₀.shapeCasts_S128_S1x128 := by
  after_results_simp <;> rfl

theorem H3_agg (V : Valuation τ sig (Elt F)) : after hostOps3 V (Proc.devRef .tc main_v105)
    = aggregate40 (V (Proc.devRef .tc main_v3)) (V (Proc.devRef .tc main_v6)) (V (Proc.devRef .tc main_v16)) (V (Proc.devRef .tc main_v77)) := by
  after_results_simp <;> rfl
theorem H3_bias (V : Valuation τ sig (Elt F)) : after hostOps3 V (Proc.devRef .tc main_v106)
    = shapeCast Cert.ReferenceIdeal.S1x40 (V (Proc.devRef .tc main_arg7)) Facts₀.shapeCasts_S40_S1x40 := by
  after_results_simp <;> rfl

/-! ## What each stretch leaves alone -/

theorem keep_hostOps0_main_arg0 (V : Valuation τ sig (Elt F)) : after hostOps0 V (Proc.devRef .tc main_arg0) = V (Proc.devRef .tc main_arg0) :=
  StableHlo.after_of_forall_not_mem _ _ (List.forall_iff_forall_mem.mp (by
    simp only [hostOps0, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps0_main_arg2 (V : Valuation τ sig (Elt F)) : after hostOps0 V (Proc.devRef .tc main_arg2) = V (Proc.devRef .tc main_arg2) :=
  StableHlo.after_of_forall_not_mem _ _ (List.forall_iff_forall_mem.mp (by
    simp only [hostOps0, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps0_main_arg3 (V : Valuation τ sig (Elt F)) : after hostOps0 V (Proc.devRef .tc main_arg3) = V (Proc.devRef .tc main_arg3) :=
  StableHlo.after_of_forall_not_mem _ _ (List.forall_iff_forall_mem.mp (by
    simp only [hostOps0, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps0_main_arg4 (V : Valuation τ sig (Elt F)) : after hostOps0 V (Proc.devRef .tc main_arg4) = V (Proc.devRef .tc main_arg4) :=
  StableHlo.after_of_forall_not_mem _ _ (List.forall_iff_forall_mem.mp (by
    simp only [hostOps0, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps0_main_arg5 (V : Valuation τ sig (Elt F)) : after hostOps0 V (Proc.devRef .tc main_arg5) = V (Proc.devRef .tc main_arg5) :=
  StableHlo.after_of_forall_not_mem _ _ (List.forall_iff_forall_mem.mp (by
    simp only [hostOps0, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps0_main_arg6 (V : Valuation τ sig (Elt F)) : after hostOps0 V (Proc.devRef .tc main_arg6) = V (Proc.devRef .tc main_arg6) :=
  StableHlo.after_of_forall_not_mem _ _ (List.forall_iff_forall_mem.mp (by
    simp only [hostOps0, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps0_main_arg7 (V : Valuation τ sig (Elt F)) : after hostOps0 V (Proc.devRef .tc main_arg7) = V (Proc.devRef .tc main_arg7) :=
  StableHlo.after_of_forall_not_mem _ _ (List.forall_iff_forall_mem.mp (by
    simp only [hostOps0, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps0_1_main_arg0 (V : Valuation τ sig (Elt F)) : after hostOps0_1 V (Proc.devRef .tc main_arg0) = V (Proc.devRef .tc main_arg0) :=
  StableHlo.after_of_forall_not_mem _ _ (List.forall_iff_forall_mem.mp (by
    simp only [hostOps0_1, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps0_1_main_arg2 (V : Valuation τ sig (Elt F)) : after hostOps0_1 V (Proc.devRef .tc main_arg2) = V (Proc.devRef .tc main_arg2) :=
  StableHlo.after_of_forall_not_mem _ _ (List.forall_iff_forall_mem.mp (by
    simp only [hostOps0_1, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps0_1_main_arg3 (V : Valuation τ sig (Elt F)) : after hostOps0_1 V (Proc.devRef .tc main_arg3) = V (Proc.devRef .tc main_arg3) :=
  StableHlo.after_of_forall_not_mem _ _ (List.forall_iff_forall_mem.mp (by
    simp only [hostOps0_1, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps0_1_main_arg4 (V : Valuation τ sig (Elt F)) : after hostOps0_1 V (Proc.devRef .tc main_arg4) = V (Proc.devRef .tc main_arg4) :=
  StableHlo.after_of_forall_not_mem _ _ (List.forall_iff_forall_mem.mp (by
    simp only [hostOps0_1, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps0_1_main_arg5 (V : Valuation τ sig (Elt F)) : after hostOps0_1 V (Proc.devRef .tc main_arg5) = V (Proc.devRef .tc main_arg5) :=
  StableHlo.after_of_forall_not_mem _ _ (List.forall_iff_forall_mem.mp (by
    simp only [hostOps0_1, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps0_1_main_arg6 (V : Valuation τ sig (Elt F)) : after hostOps0_1 V (Proc.devRef .tc main_arg6) = V (Proc.devRef .tc main_arg6) :=
  StableHlo.after_of_forall_not_mem _ _ (List.forall_iff_forall_mem.mp (by
    simp only [hostOps0_1, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps0_1_main_arg7 (V : Valuation τ sig (Elt F)) : after hostOps0_1 V (Proc.devRef .tc main_arg7) = V (Proc.devRef .tc main_arg7) :=
  StableHlo.after_of_forall_not_mem _ _ (List.forall_iff_forall_mem.mp (by
    simp only [hostOps0_1, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps0_1_main_v3 (V : Valuation τ sig (Elt F)) : after hostOps0_1 V (Proc.devRef .tc main_v3) = V (Proc.devRef .tc main_v3) :=
  StableHlo.after_of_forall_not_mem _ _ (List.forall_iff_forall_mem.mp (by
    simp only [hostOps0_1, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps0_1_main_v6 (V : Valuation τ sig (Elt F)) : after hostOps0_1 V (Proc.devRef .tc main_v6) = V (Proc.devRef .tc main_v6) :=
  StableHlo.after_of_forall_not_mem _ _ (List.forall_iff_forall_mem.mp (by
    simp only [hostOps0_1, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps1_main_v3 (V : Valuation τ sig (Elt F)) : after hostOps1 V (Proc.devRef .tc main_v3) = V (Proc.devRef .tc main_v3) :=
  StableHlo.after_of_forall_not_mem _ _ (List.forall_iff_forall_mem.mp (by
    simp only [hostOps1, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps1_main_v6 (V : Valuation τ sig (Elt F)) : after hostOps1 V (Proc.devRef .tc main_v6) = V (Proc.devRef .tc main_v6) :=
  StableHlo.after_of_forall_not_mem _ _ (List.forall_iff_forall_mem.mp (by
    simp only [hostOps1, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps1_main_v16 (V : Valuation τ sig (Elt F)) : after hostOps1 V (Proc.devRef .tc main_v16) = V (Proc.devRef .tc main_v16) :=
  StableHlo.after_of_forall_not_mem _ _ (List.forall_iff_forall_mem.mp (by
    simp only [hostOps1, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps1_main_arg4 (V : Valuation τ sig (Elt F)) : after hostOps1 V (Proc.devRef .tc main_arg4) = V (Proc.devRef .tc main_arg4) :=
  StableHlo.after_of_forall_not_mem _ _ (List.forall_iff_forall_mem.mp (by
    simp only [hostOps1, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps1_main_arg5 (V : Valuation τ sig (Elt F)) : after hostOps1 V (Proc.devRef .tc main_arg5) = V (Proc.devRef .tc main_arg5) :=
  StableHlo.after_of_forall_not_mem _ _ (List.forall_iff_forall_mem.mp (by
    simp only [hostOps1, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps1_main_arg6 (V : Valuation τ sig (Elt F)) : after hostOps1 V (Proc.devRef .tc main_arg6) = V (Proc.devRef .tc main_arg6) :=
  StableHlo.after_of_forall_not_mem _ _ (List.forall_iff_forall_mem.mp (by
    simp only [hostOps1, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps1_main_arg7 (V : Valuation τ sig (Elt F)) : after hostOps1 V (Proc.devRef .tc main_arg7) = V (Proc.devRef .tc main_arg7) :=
  StableHlo.after_of_forall_not_mem _ _ (List.forall_iff_forall_mem.mp (by
    simp only [hostOps1, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps2_main_v3 (V : Valuation τ sig (Elt F)) : after hostOps2 V (Proc.devRef .tc main_v3) = V (Proc.devRef .tc main_v3) :=
  StableHlo.after_of_forall_not_mem _ _ (List.forall_iff_forall_mem.mp (by
    simp only [hostOps2, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps2_main_v6 (V : Valuation τ sig (Elt F)) : after hostOps2 V (Proc.devRef .tc main_v6) = V (Proc.devRef .tc main_v6) :=
  StableHlo.after_of_forall_not_mem _ _ (List.forall_iff_forall_mem.mp (by
    simp only [hostOps2, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps2_main_v16 (V : Valuation τ sig (Elt F)) : after hostOps2 V (Proc.devRef .tc main_v16) = V (Proc.devRef .tc main_v16) :=
  StableHlo.after_of_forall_not_mem _ _ (List.forall_iff_forall_mem.mp (by
    simp only [hostOps2, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps2_main_arg6 (V : Valuation τ sig (Elt F)) : after hostOps2 V (Proc.devRef .tc main_arg6) = V (Proc.devRef .tc main_arg6) :=
  StableHlo.after_of_forall_not_mem _ _ (List.forall_iff_forall_mem.mp (by
    simp only [hostOps2, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps2_main_arg7 (V : Valuation τ sig (Elt F)) : after hostOps2 V (Proc.devRef .tc main_arg7) = V (Proc.devRef .tc main_arg7) :=
  StableHlo.after_of_forall_not_mem _ _ (List.forall_iff_forall_mem.mp (by
    simp only [hostOps2, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps3_main_v3 (V : Valuation τ sig (Elt F)) : after hostOps3 V (Proc.devRef .tc main_v3) = V (Proc.devRef .tc main_v3) :=
  StableHlo.after_of_forall_not_mem _ _ (List.forall_iff_forall_mem.mp (by
    simp only [hostOps3, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps3_main_v6 (V : Valuation τ sig (Elt F)) : after hostOps3 V (Proc.devRef .tc main_v6) = V (Proc.devRef .tc main_v6) :=
  StableHlo.after_of_forall_not_mem _ _ (List.forall_iff_forall_mem.mp (by
    simp only [hostOps3, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_hostOps3_main_v16 (V : Valuation τ sig (Elt F)) : after hostOps3 V (Proc.devRef .tc main_v16) = V (Proc.devRef .tc main_v16) :=
  StableHlo.after_of_forall_not_mem _ _ (List.forall_iff_forall_mem.mp (by
    simp only [hostOps3, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

end Stretches

/-! ## The fold, walked back from the result -/

variable (m : (ℓ : Loc nD τ sig) → Buf (Elt Ideal) ℓ) (ρ : Dev nD → PrngReg)

theorem W2_keep_main_arg0 (c : Dev nD) : W2 m ρ c (Proc.devRef .tc main_arg0) = W0 m ρ c (Proc.devRef .tc main_arg0) :=
  (keep_hostOps0_1_main_arg0 _).trans (keep_hostOps0_main_arg0 _)
theorem W2_keep_main_arg2 (c : Dev nD) : W2 m ρ c (Proc.devRef .tc main_arg2) = W0 m ρ c (Proc.devRef .tc main_arg2) :=
  (keep_hostOps0_1_main_arg2 _).trans (keep_hostOps0_main_arg2 _)
theorem W2_keep_main_arg3 (c : Dev nD) : W2 m ρ c (Proc.devRef .tc main_arg3) = W0 m ρ c (Proc.devRef .tc main_arg3) :=
  (keep_hostOps0_1_main_arg3 _).trans (keep_hostOps0_main_arg3 _)
theorem W2_keep_main_arg4 (c : Dev nD) : W2 m ρ c (Proc.devRef .tc main_arg4) = W0 m ρ c (Proc.devRef .tc main_arg4) :=
  (keep_hostOps0_1_main_arg4 _).trans (keep_hostOps0_main_arg4 _)
theorem W2_keep_main_arg5 (c : Dev nD) : W2 m ρ c (Proc.devRef .tc main_arg5) = W0 m ρ c (Proc.devRef .tc main_arg5) :=
  (keep_hostOps0_1_main_arg5 _).trans (keep_hostOps0_main_arg5 _)
theorem W2_keep_main_arg6 (c : Dev nD) : W2 m ρ c (Proc.devRef .tc main_arg6) = W0 m ρ c (Proc.devRef .tc main_arg6) :=
  (keep_hostOps0_1_main_arg6 _).trans (keep_hostOps0_main_arg6 _)
theorem W2_keep_main_arg7 (c : Dev nD) : W2 m ρ c (Proc.devRef .tc main_arg7) = W0 m ρ c (Proc.devRef .tc main_arg7) :=
  (keep_hostOps0_1_main_arg7 _).trans (keep_hostOps0_main_arg7 _)
theorem W2_src (c : Dev nD) : W2 m ρ c (Proc.devRef .tc main_v3) = srcIdx (W0 m ρ c (Proc.devRef .tc main_arg1)) :=
  (keep_hostOps0_1_main_v3 _).trans (H0_src _)
theorem W2_dst (c : Dev nD) : W2 m ρ c (Proc.devRef .tc main_v6) = dstIdx (W0 m ρ c (Proc.devRef .tc main_arg1)) :=
  (keep_hostOps0_1_main_v6 _).trans (H0_dst _)
theorem W2_weight (c : Dev nD) : W2 m ρ c (Proc.devRef .tc main_v16) = nodeWeight (dstIdx (W0 m ρ c (Proc.devRef .tc main_arg1))) :=
  H01_weight (W0 m ρ c)
/-- Region 0 leaves x · W1 in its output array. -/
theorem W3_proj (c : Dev nD) : W3 m ρ c (Proc.devRef .tc main_v17) = project128 (W2 m ρ c (Proc.devRef .tc main_arg0)) (W2 m ρ c (Proc.devRef .tc main_arg2)) :=
  (W3_arr m ρ c 2).trans (K0.region_value (V2 m ρ) c)
theorem W3_keep_main_v3 (c : Dev nD) : W3 m ρ c (Proc.devRef .tc main_v3) = W2 m ρ c (Proc.devRef .tc main_v3) := W3_of_ne m ρ c main_v3 (by decide)
theorem W3_keep_main_v6 (c : Dev nD) : W3 m ρ c (Proc.devRef .tc main_v6) = W2 m ρ c (Proc.devRef .tc main_v6) := W3_of_ne m ρ c main_v6 (by decide)
theorem W3_keep_main_v16 (c : Dev nD) : W3 m ρ c (Proc.devRef .tc main_v16) = W2 m ρ c (Proc.devRef .tc main_v16) := W3_of_ne m ρ c main_v16 (by decide)
theorem W3_keep_main_arg3 (c : Dev nD) : W3 m ρ c (Proc.devRef .tc main_arg3) = W2 m ρ c (Proc.devRef .tc main_arg3) := W3_of_ne m ρ c main_arg3 (by decide)
theorem W3_keep_main_arg4 (c : Dev nD) : W3 m ρ c (Proc.devRef .tc main_arg4) = W2 m ρ c (Proc.devRef .tc main_arg4) := W3_of_ne m ρ c main_arg4 (by decide)
theorem W3_keep_main_arg5 (c : Dev nD) : W3 m ρ c (Proc.devRef .tc main_arg5) = W2 m ρ c (Proc.devRef .tc main_arg5) := W3_of_ne m ρ c main_arg5 (by decide)
theorem W3_keep_main_arg6 (c : Dev nD) : W3 m ρ c (Proc.devRef .tc main_arg6) = W2 m ρ c (Proc.devRef .tc main_arg6) := W3_of_ne m ρ c main_arg6 (by decide)
theorem W3_keep_main_arg7 (c : Dev nD) : W3 m ρ c (Proc.devRef .tc main_arg7) = W2 m ρ c (Proc.devRef .tc main_arg7) := W3_of_ne m ρ c main_arg7 (by decide)
theorem W4_agg (c : Dev nD) : W4 m ρ c (Proc.devRef .tc main_v45) = aggregate128 (W3 m ρ c (Proc.devRef .tc main_v3)) (W3 m ρ c (Proc.devRef .tc main_v6)) (W3 m ρ c (Proc.devRef .tc main_v16)) (W3 m ρ c (Proc.devRef .tc main_v17)) :=
  H1_agg (W3 m ρ c)
theorem W4_bias (c : Dev nD) : W4 m ρ c (Proc.devRef .tc main_v46) = shapeCast Cert.ReferenceIdeal.S1x128 (W3 m ρ c (Proc.devRef .tc main_arg3)) Facts₀.shapeCasts_S128_S1x128 :=
  H1_bias (W3 m ρ c)
theorem W4_keep_main_v3 (c : Dev nD) : W4 m ρ c (Proc.devRef .tc main_v3) = W3 m ρ c (Proc.devRef .tc main_v3) := keep_hostOps1_main_v3 (W3 m ρ c)
theorem W4_keep_main_v6 (c : Dev nD) : W4 m ρ c (Proc.devRef .tc main_v6) = W3 m ρ c (Proc.devRef .tc main_v6) := keep_hostOps1_main_v6 (W3 m ρ c)
theorem W4_keep_main_v16 (c : Dev nD) : W4 m ρ c (Proc.devRef .tc main_v16) = W3 m ρ c (Proc.devRef .tc main_v16) := keep_hostOps1_main_v16 (W3 m ρ c)
theorem W4_keep_main_arg4 (c : Dev nD) : W4 m ρ c (Proc.devRef .tc main_arg4) = W3 m ρ c (Proc.devRef .tc main_arg4) := keep_hostOps1_main_arg4 (W3 m ρ c)
theorem W4_keep_main_arg5 (c : Dev nD) : W4 m ρ c (Proc.devRef .tc main_arg5) = W3 m ρ c (Proc.devRef .tc main_arg5) := keep_hostOps1_main_arg5 (W3 m ρ c)
theorem W4_keep_main_arg6 (c : Dev nD) : W4 m ρ c (Proc.devRef .tc main_arg6) = W3 m ρ c (Proc.devRef .tc main_arg6) := keep_hostOps1_main_arg6 (W3 m ρ c)
theorem W4_keep_main_arg7 (c : Dev nD) : W4 m ρ c (Proc.devRef .tc main_arg7) = W3 m ρ c (Proc.devRef .tc main_arg7) := keep_hostOps1_main_arg7 (W3 m ρ c)
/-- Region 1 leaves relu (agg + b1) · W2 in its output array. -/
theorem W5_proj (c : Dev nD) : W5 m ρ c (Proc.devRef .tc main_v47) = project128 (biasRelu128 (W4 m ρ c (Proc.devRef .tc main_v45)) (W4 m ρ c (Proc.devRef .tc main_v46))) (W4 m ρ c (Proc.devRef .tc main_arg4)) :=
  (W5_arr m ρ c 3).trans (K1.region_value (V4 m ρ) c)
theorem W5_keep_main_v3 (c : Dev nD) : W5 m ρ c (Proc.devRef .tc main_v3) = W4 m ρ c (Proc.devRef .tc main_v3) := W5_of_ne m ρ c main_v3 (by decide)
theorem W5_keep_main_v6 (c : Dev nD) : W5 m ρ c (Proc.devRef .tc main_v6) = W4 m ρ c (Proc.devRef .tc main_v6) := W5_of_ne m ρ c main_v6 (by decide)
theorem W5_keep_main_v16 (c : Dev nD) : W5 m ρ c (Proc.devRef .tc main_v16) = W4 m ρ c (Proc.devRef .tc main_v16) := W5_of_ne m ρ c main_v16 (by decide)
theorem W5_keep_main_arg5 (c : Dev nD) : W5 m ρ c (Proc.devRef .tc main_arg5) = W4 m ρ c (Proc.devRef .tc main_arg5) := W5_of_ne m ρ c main_arg5 (by decide)
theorem W5_keep_main_arg6 (c : Dev nD) : W5 m ρ c (Proc.devRef .tc main_arg6) = W4 m ρ c (Proc.devRef .tc main_arg6) := W5_of_ne m ρ c main_arg6 (by decide)
theorem W5_keep_main_arg7 (c : Dev nD) : W5 m ρ c (Proc.devRef .tc main_arg7) = W4 m ρ c (Proc.devRef .tc main_arg7) := W5_of_ne m ρ c main_arg7 (by decide)
theorem W6_agg (c : Dev nD) : W6 m ρ c (Proc.devRef .tc main_v75) = aggregate128 (W5 m ρ c (Proc.devRef .tc main_v3)) (W5 m ρ c (Proc.devRef .tc main_v6)) (W5 m ρ c (Proc.devRef .tc main_v16)) (W5 m ρ c (Proc.devRef .tc main_v47)) :=
  H2_agg (W5 m ρ c)
theorem W6_bias (c : Dev nD) : W6 m ρ c (Proc.devRef .tc main_v76) = shapeCast Cert.ReferenceIdeal.S1x128 (W5 m ρ c (Proc.devRef .tc main_arg5)) Facts₀.shapeCasts_S128_S1x128 :=
  H2_bias (W5 m ρ c)
theorem W6_keep_main_v3 (c : Dev nD) : W6 m ρ c (Proc.devRef .tc main_v3) = W5 m ρ c (Proc.devRef .tc main_v3) := keep_hostOps2_main_v3 (W5 m ρ c)
theorem W6_keep_main_v6 (c : Dev nD) : W6 m ρ c (Proc.devRef .tc main_v6) = W5 m ρ c (Proc.devRef .tc main_v6) := keep_hostOps2_main_v6 (W5 m ρ c)
theorem W6_keep_main_v16 (c : Dev nD) : W6 m ρ c (Proc.devRef .tc main_v16) = W5 m ρ c (Proc.devRef .tc main_v16) := keep_hostOps2_main_v16 (W5 m ρ c)
theorem W6_keep_main_arg6 (c : Dev nD) : W6 m ρ c (Proc.devRef .tc main_arg6) = W5 m ρ c (Proc.devRef .tc main_arg6) := keep_hostOps2_main_arg6 (W5 m ρ c)
theorem W6_keep_main_arg7 (c : Dev nD) : W6 m ρ c (Proc.devRef .tc main_arg7) = W5 m ρ c (Proc.devRef .tc main_arg7) := keep_hostOps2_main_arg7 (W5 m ρ c)
/-- Region 2 leaves relu (agg + b2) · W3 in its output array. -/
theorem W7_proj (c : Dev nD) : W7 m ρ c (Proc.devRef .tc main_v77) = project40 (biasRelu128 (W6 m ρ c (Proc.devRef .tc main_v75)) (W6 m ρ c (Proc.devRef .tc main_v76))) (W6 m ρ c (Proc.devRef .tc main_arg6)) :=
  (W7_arr m ρ c 3).trans (K2.region_value (V6 m ρ) c)
theorem W7_keep_main_v3 (c : Dev nD) : W7 m ρ c (Proc.devRef .tc main_v3) = W6 m ρ c (Proc.devRef .tc main_v3) := W7_of_ne m ρ c main_v3 (by decide)
theorem W7_keep_main_v6 (c : Dev nD) : W7 m ρ c (Proc.devRef .tc main_v6) = W6 m ρ c (Proc.devRef .tc main_v6) := W7_of_ne m ρ c main_v6 (by decide)
theorem W7_keep_main_v16 (c : Dev nD) : W7 m ρ c (Proc.devRef .tc main_v16) = W6 m ρ c (Proc.devRef .tc main_v16) := W7_of_ne m ρ c main_v16 (by decide)
theorem W7_keep_main_arg7 (c : Dev nD) : W7 m ρ c (Proc.devRef .tc main_arg7) = W6 m ρ c (Proc.devRef .tc main_arg7) := W7_of_ne m ρ c main_arg7 (by decide)
theorem W8_agg (c : Dev nD) : W8 m ρ c (Proc.devRef .tc main_v105) = aggregate40 (W7 m ρ c (Proc.devRef .tc main_v3)) (W7 m ρ c (Proc.devRef .tc main_v6)) (W7 m ρ c (Proc.devRef .tc main_v16)) (W7 m ρ c (Proc.devRef .tc main_v77)) :=
  H3_agg (W7 m ρ c)
theorem W8_bias (c : Dev nD) : W8 m ρ c (Proc.devRef .tc main_v106) = shapeCast Cert.ReferenceIdeal.S1x40 (W7 m ρ c (Proc.devRef .tc main_arg7)) Facts₀.shapeCasts_S40_S1x40 :=
  H3_bias (W7 m ρ c)
/-- Region 3 leaves the log-softmax of the biased logits in its output array. -/
theorem W9_out (c : Dev nD) : W9 m ρ c (Proc.devRef .tc main_v107) = logSoftmaxRows (addBias40 (W8 m ρ c (Proc.devRef .tc main_v105)) (W8 m ρ c (Proc.devRef .tc main_v106))) :=
  (W9_arr m ρ c 2).trans (K3.region_value (V8 m ρ) c)

/-- The result buffer at the last boundary: the network of the launched arguments. -/
theorem result_eq (c : Dev nD) : V9 m ρ c main_v107
    = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show W9 m ρ c (Proc.devRef .tc main_v107) = _
  rw [W9_out, W8_agg, W8_bias, W7_proj, W7_keep_main_v3, W7_keep_main_v6, W7_keep_main_v16, W7_keep_main_arg7, W6_agg, W6_bias, W6_keep_main_v3, W6_keep_main_v6, W6_keep_main_v16, W6_keep_main_arg6, W6_keep_main_arg7, W5_proj, W5_keep_main_v3, W5_keep_main_v6, W5_keep_main_v16, W5_keep_main_arg5, W5_keep_main_arg6, W5_keep_main_arg7, W4_agg, W4_bias, W4_keep_main_v3, W4_keep_main_v6, W4_keep_main_v16, W4_keep_main_arg4, W4_keep_main_arg5, W4_keep_main_arg6, W4_keep_main_arg7, W3_proj, W3_keep_main_v3, W3_keep_main_v6, W3_keep_main_v16, W3_keep_main_arg3, W3_keep_main_arg4, W3_keep_main_arg5, W3_keep_main_arg6, W3_keep_main_arg7, W2_src, W2_dst, W2_weight, W2_keep_main_arg0, W2_keep_main_arg2, W2_keep_main_arg3, W2_keep_main_arg4, W2_keep_main_arg5, W2_keep_main_arg6, W2_keep_main_arg7]
  rw [← biasRow40_eq, ← biasRow128_eq, ← biasRow128_eq]
  rfl

end Cert.Gcn.Ker

end
-- ==== Proof.RefRun.lean ====
/-
  The reference program's run, stated over its @main as consecutive lists of host operations: the edge
  preparation with the first layer's matrix product (the endpoint arrays, the degrees, the node weights, x · W1),
  then one list per layer — the aggregation of the previous product, the bias and the clamp, and the next product —,
  then the third aggregation with its bias, and last the log-softmax in four short lists (the row maxima; the shift; the
  exponentials' row sums; the logarithms subtracted).  Every weakly fair execution of @main terminates,
  and every buffer ends at the fold of the lists over the launch contents.  The result buffer is read off that
  fold one list at a time (each list from whatever valuation it is entered at), never as one composed term: the
  node weights are read by six gathers and the last logits by four later operations, so the composed term
  would repeat the whole network twenty-four times over.
-/
import proofs.«142511_j26182120636970_1_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The edge preparation and the first product: endpoints, degrees, node weights (the outlined `where` in place), x · W1. -/
abbrev opsA : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v13 (broadcastInDim S50000 ![] bcast_S_S50000 : (⟨S_, .f32⟩ : BufTy).Contents (Elt F) → (⟨S50000, .f32⟩ : BufTy).Contents (Elt F)),
    binary main_v10 main_v13 main_v14 (maximumf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v15) (TRef.of (T := ⟨S50000, .f32⟩) main_call0_v1) (TRef.of (T := ⟨S50000, .f32⟩) main_v16) select,
    binary main_arg0 main_arg2 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The first aggregation, the bias and the clamp (the outlined `relu` in place), and the product with W2. -/
abbrev opsB : List (HloOp τ sig (Elt F)) :=
  [ nullary main_c (constantI S_ 32 0#32),
    unary main_c main_v18 (broadcastInDim S850000 ![] bcast_S_S850000 : (⟨S_, .i32⟩ : BufTy).Contents (Elt F) → (⟨S850000, .i32⟩ : BufTy).Contents (Elt F)),
    binary main_v3 main_v18 main_v19 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v20 (broadcastInDim S850000 ![] bcast_S_S850000 : (⟨S_, .i32⟩ : BufTy).Contents (Elt F) → (⟨S850000, .i32⟩ : BufTy).Contents (Elt F)),
    binary main_v3 main_v20 main_v21 (addi : (⟨S850000, .i32⟩ : BufTy).Contents (Elt F) → (⟨S850000, .i32⟩ : BufTy).Contents (Elt F) → (⟨S850000, .i32⟩ : BufTy).Contents (Elt F)),
    ternary main_v19 main_v21 main_v3 main_v22 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v22 main_v23 (broadcastInDim S850000x1 ![0] bcast_S850000_S850000x1_0 : (⟨S850000, .i32⟩ : BufTy).Contents (Elt F) → (⟨S850000x1, .i32⟩ : BufTy).Contents (Elt F)),
    binary main_v16 main_v23 main_v24 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v27 (broadcastInDim S850000 ![] bcast_S_S850000 : (⟨S_, .i32⟩ : BufTy).Contents (Elt F) → (⟨S850000, .i32⟩ : BufTy).Contents (Elt F)),
    binary main_v6 main_v27 main_v28 (addi : (⟨S850000, .i32⟩ : BufTy).Contents (Elt F) → (⟨S850000, .i32⟩ : BufTy).Contents (Elt F) → (⟨S850000, .i32⟩ : BufTy).Contents (Elt F)),
    ternary main_v26 main_v28 main_v6 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v29 main_v30 (broadcastInDim S850000x1 ![0] bcast_S850000_S850000x1_0 : (⟨S850000, .i32⟩ : BufTy).Contents (Elt F) → (⟨S850000x1, .i32⟩ : BufTy).Contents (Elt F)),
    binary main_v16 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v24 main_v31 main_v32 (mulf : (⟨S850000, .f32⟩ : BufTy).Contents (Elt F) → (⟨S850000, .f32⟩ : BufTy).Contents (Elt F) → (⟨S850000, .f32⟩ : BufTy).Contents (Elt F)),
    nullary main_c_7 (constantI S_ 32 0#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v35 (broadcastInDim S850000 ![] bcast_S_S850000 : (⟨S_, .i32⟩ : BufTy).Contents (Elt F) → (⟨S850000, .i32⟩ : BufTy).Contents (Elt F)),
    binary main_v3 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v3 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v17 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v32 main_v40 (broadcastInDim S850000x1 ![0] bcast_S850000_S850000x1_0 : (⟨S850000, .f32⟩ : BufTy).Contents (Elt F) → (⟨S850000x1, .f32⟩ : BufTy).Contents (Elt F)),
    unary main_v40 main_v41 (broadcastInDim S850000x128 ![0, 1] bcast_S850000x1_S850000x128_0_1 : (⟨S850000x1, .f32⟩ : BufTy).Contents (Elt F) → (⟨S850000x128, .f32⟩ : BufTy).Contents (Elt F)),
    binary main_v39 main_v41 main_v42 (mulf : (⟨S850000x128, .f32⟩ : BufTy).Contents (Elt F) → (⟨S850000x128, .f32⟩ : BufTy).Contents (Elt F) → (⟨S850000x128, .f32⟩ : BufTy).Contents (Elt F)),
    nullary main_cst_9 (constant S_ .f32 0x00000000#32),
    unary main_cst_9 main_v43 (broadcastInDim S50000x128 ![] bcast_S_S50000x128 : (⟨S_, .f32⟩ : BufTy).Contents (Elt F) → (⟨S50000x128, .f32⟩ : BufTy).Contents (Elt F)),
    unary main_v6 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v48) (TRef.of (T := ⟨S50000x128, .f32⟩) main_call1_v0) (TRef.of (T := ⟨S50000x128, .f32⟩) main_v49) maximumf,
    binary main_v49 main_arg4 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The second aggregation, the bias and the clamp, and the product with W3. -/
abbrev opsC : List (HloOp τ sig (Elt F)) :=
  [ nullary main_c_10 (constantI S_ 32 0#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (cmpi .slt : (⟨S850000, .i32⟩ : BufTy).Contents (Elt F) → (⟨S850000, .i32⟩ : BufTy).Contents (Elt F) → (⟨S850000, .i1⟩ : BufTy).Contents (Elt F)),
    nullary main_c_11 (constantI S_ 32 50000#32),
    unary main_c_11 main_v53 (broadcastInDim S850000 ![] bcast_S_S850000 : (⟨S_, .i32⟩ : BufTy).Contents (Elt F) → (⟨S850000, .i32⟩ : BufTy).Contents (Elt F)),
    binary main_v3 main_v53 main_v54 (addi : (⟨S850000, .i32⟩ : BufTy).Contents (Elt F) → (⟨S850000, .i32⟩ : BufTy).Contents (Elt F) → (⟨S850000, .i32⟩ : BufTy).Contents (Elt F)),
    ternary main_v52 main_v54 main_v3 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v55 main_v56 (broadcastInDim S850000x1 ![0] bcast_S850000_S850000x1_0 : (⟨S850000, .i32⟩ : BufTy).Contents (Elt F) → (⟨S850000x1, .i32⟩ : BufTy).Contents (Elt F)),
    binary main_v16 main_v56 main_v57 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_12 (constantI S_ 32 0#32),
    unary main_c_12 main_v58 (broadcastInDim S850000 ![] bcast_S_S850000 : (⟨S_, .i32⟩ : BufTy).Contents (Elt F) → (⟨S850000, .i32⟩ : BufTy).Contents (Elt F)),
    binary main_v6 main_v58 main_v59 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v60 (broadcastInDim S850000 ![] bcast_S_S850000 : (⟨S_, .i32⟩ : BufTy).Contents (Elt F) → (⟨S850000, .i32⟩ : BufTy).Contents (Elt F)),
    binary main_v6 main_v60 main_v61 (addi : (⟨S850000, .i32⟩ : BufTy).Contents (Elt F) → (⟨S850000, .i32⟩ : BufTy).Contents (Elt F) → (⟨S850000, .i32⟩ : BufTy).Contents (Elt F)),
    ternary main_v59 main_v61 main_v6 main_v62 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v62 main_v63 (broadcastInDim S850000x1 ![0] bcast_S850000_S850000x1_0 : (⟨S850000, .i32⟩ : BufTy).Contents (Elt F) → (⟨S850000x1, .i32⟩ : BufTy).Contents (Elt F)),
    binary main_v16 main_v63 main_v64 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v57 main_v64 main_v65 (mulf : (⟨S850000, .f32⟩ : BufTy).Contents (Elt F) → (⟨S850000, .f32⟩ : BufTy).Contents (Elt F) → (⟨S850000, .f32⟩ : BufTy).Contents (Elt F)),
    nullary main_c_14 (constantI S_ 32 0#32),
    unary main_c_14 main_v66 (broadcastInDim S850000 ![] bcast_S_S850000 : (⟨S_, .i32⟩ : BufTy).Contents (Elt F) → (⟨S850000, .i32⟩ : BufTy).Contents (Elt F)),
    binary main_v3 main_v66 main_v67 (cmpi .slt : (⟨S850000, .i32⟩ : BufTy).Contents (Elt F) → (⟨S850000, .i32⟩ : BufTy).Contents (Elt F) → (⟨S850000, .i1⟩ : BufTy).Contents (Elt F)),
    nullary main_c_15 (constantI S_ 32 50000#32),
    unary main_c_15 main_v68 (broadcastInDim S850000 ![] bcast_S_S850000 : (⟨S_, .i32⟩ : BufTy).Contents (Elt F) → (⟨S850000, .i32⟩ : BufTy).Contents (Elt F)),
    binary main_v3 main_v68 main_v69 (addi : (⟨S850000, .i32⟩ : BufTy).Contents (Elt F) → (⟨S850000, .i32⟩ : BufTy).Contents (Elt F) → (⟨S850000, .i32⟩ : BufTy).Contents (Elt F)),
    ternary main_v67 main_v69 main_v3 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v70 main_v71 (broadcastInDim S850000x1 ![0] bcast_S850000_S850000x1_0 : (⟨S850000, .i32⟩ : BufTy).Contents (Elt F) → (⟨S850000x1, .i32⟩ : BufTy).Contents (Elt F)),
    binary main_v50 main_v71 main_v72 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v65 main_v73 (broadcastInDim S850000x1 ![0] bcast_S850000_S850000x1_0 : (⟨S850000, .f32⟩ : BufTy).Contents (Elt F) → (⟨S850000x1, .f32⟩ : BufTy).Contents (Elt F)),
    unary main_v73 main_v74 (broadcastInDim S850000x128 ![0, 1] bcast_S850000x1_S850000x128_0_1 : (⟨S850000x1, .f32⟩ : BufTy).Contents (Elt F) → (⟨S850000x128, .f32⟩ : BufTy).Contents (Elt F)),
    binary main_v72 main_v74 main_v75 (mulf : (⟨S850000x128, .f32⟩ : BufTy).Contents (Elt F) → (⟨S850000x128, .f32⟩ : BufTy).Contents (Elt F) → (⟨S850000x128, .f32⟩ : BufTy).Contents (Elt F)),
    nullary main_cst_16 (constant S_ .f32 0x00000000#32),
    unary main_cst_16 main_v76 (broadcastInDim S50000x128 ![] bcast_S_S50000x128 : (⟨S_, .f32⟩ : BufTy).Contents (Elt F) → (⟨S50000x128, .f32⟩ : BufTy).Contents (Elt F)),
    unary main_v6 main_v77 (broadcastInDim S850000x1 ![0] bcast_S850000_S850000x1_0 : (⟨S850000, .i32⟩ : BufTy).Contents (Elt F) → (⟨S850000x1, .i32⟩ : BufTy).Contents (Elt F)),
    ternary main_v76 main_v77 main_v75 main_v78 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v79 (broadcastInDim S1x128 ![1] bcast_S128_S1x128_1 : (⟨S128, .f32⟩ : BufTy).Contents (Elt F) → (⟨S1x128, .f32⟩ : BufTy).Contents (Elt F)),
    unary main_v79 main_v80 (broadcastInDim S50000x128 ![0, 1] bcast_S1x128_S50000x128_0_1 : (⟨S1x128, .f32⟩ : BufTy).Contents (Elt F) → (⟨S50000x128, .f32⟩ : BufTy).Contents (Elt F)),
    binary main_v78 main_v80 main_v81 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v81) (TRef.of (T := ⟨S50000x128, .f32⟩) main_call2_v0) (TRef.of (T := ⟨S50000x128, .f32⟩) main_v82) maximumf,
    binary main_v82 main_arg6 main_v83 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)) ]

/-- The third aggregation and the bias. -/
abbrev opsD : List (HloOp τ sig (Elt F)) :=
  [ nullary main_c_17 (constantI S_ 32 0#32),
    unary main_c_17 main_v84 (broadcastInDim S850000 ![] bcast_S_S850000 : (⟨S_, .i32⟩ : BufTy).Contents (Elt F) → (⟨S850000, .i32⟩ : BufTy).Contents (Elt F)),
    binary main_v3 main_v84 main_v85 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v86 (broadcastInDim S850000 ![] bcast_S_S850000 : (⟨S_, .i32⟩ : BufTy).Contents (Elt F) → (⟨S850000, .i32⟩ : BufTy).Contents (Elt F)),
    binary main_v3 main_v86 main_v87 (addi : (⟨S850000, .i32⟩ : BufTy).Contents (Elt F) → (⟨S850000, .i32⟩ : BufTy).Contents (Elt F) → (⟨S850000, .i32⟩ : BufTy).Contents (Elt F)),
    ternary main_v85 main_v87 main_v3 main_v88 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v88 main_v89 (broadcastInDim S850000x1 ![0] bcast_S850000_S850000x1_0 : (⟨S850000, .i32⟩ : BufTy).Contents (Elt F) → (⟨S850000x1, .i32⟩ : BufTy).Contents (Elt F)),
    binary main_v16 main_v89 main_v90 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_19 (constantI S_ 32 0#32),
    unary main_c_19 main_v91 (broadcastInDim S850000 ![] bcast_S_S850000 : (⟨S_, .i32⟩ : BufTy).Contents (Elt F) → (⟨S850000, .i32⟩ : BufTy).Contents (Elt F)),
    binary main_v6 main_v91 main_v92 (cmpi .slt : (⟨S850000, .i32⟩ : BufTy).Contents (Elt F) → (⟨S850000, .i32⟩ : BufTy).Contents (Elt F) → (⟨S850000, .i1⟩ : BufTy).Contents (Elt F)),
    nullary main_c_20 (constantI S_ 32 50000#32),
    unary main_c_20 main_v93 (broadcastInDim S850000 ![] bcast_S_S850000 : (⟨S_, .i32⟩ : BufTy).Contents (Elt F) → (⟨S850000, .i32⟩ : BufTy).Contents (Elt F)),
    binary main_v6 main_v93 main_v94 (addi : (⟨S850000, .i32⟩ : BufTy).Contents (Elt F) → (⟨S850000, .i32⟩ : BufTy).Contents (Elt F) → (⟨S850000, .i32⟩ : BufTy).Contents (Elt F)),
    ternary main_v92 main_v94 main_v6 main_v95 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v95 main_v96 (broadcastInDim S850000x1 ![0] bcast_S850000_S850000x1_0 : (⟨S850000, .i32⟩ : BufTy).Contents (Elt F) → (⟨S850000x1, .i32⟩ : BufTy).Contents (Elt F)),
    binary main_v16 main_v96 main_v97 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v90 main_v97 main_v98 (mulf : (⟨S850000, .f32⟩ : BufTy).Contents (Elt F) → (⟨S850000, .f32⟩ : BufTy).Contents (Elt F) → (⟨S850000, .f32⟩ : BufTy).Contents (Elt F)),
    nullary main_c_21 (constantI S_ 32 0#32),
    unary main_c_21 main_v99 (broadcastInDim S850000 ![] bcast_S_S850000 : (⟨S_, .i32⟩ : BufTy).Contents (Elt F) → (⟨S850000, .i32⟩ : BufTy).Contents (Elt F)),
    binary main_v3 main_v99 main_v100 (cmpi .slt : (⟨S850000, .i32⟩ : BufTy).Contents (Elt F) → (⟨S850000, .i32⟩ : BufTy).Contents (Elt F) → (⟨S850000, .i1⟩ : BufTy).Contents (Elt F)),
    nullary main_c_22 (constantI S_ 32 50000#32),
    unary main_c_22 main_v101 (broadcastInDim S850000 ![] bcast_S_S850000 : (⟨S_, .i32⟩ : BufTy).Contents (Elt F) → (⟨S850000, .i32⟩ : BufTy).Contents (Elt F)),
    binary main_v3 main_v101 main_v102 (addi : (⟨S850000, .i32⟩ : BufTy).Contents (Elt F) → (⟨S850000, .i32⟩ : BufTy).Contents (Elt F) → (⟨S850000, .i32⟩ : BufTy).Contents (Elt F)),
    ternary main_v100 main_v102 main_v3 main_v103 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v103 main_v104 (broadcastInDim S850000x1 ![0] bcast_S850000_S850000x1_0 : (⟨S850000, .i32⟩ : BufTy).Contents (Elt F) → (⟨S850000x1, .i32⟩ : BufTy).Contents (Elt F)),
    binary main_v83 main_v104 main_v105 ((fun x i => Host.gather gather_S50000x40_S850000x1_S850000x40_1_0_n_n_0_1_140 x i) : (⟨S50000x40, .f32⟩ : BufTy).Contents (Elt F) → (⟨S850000x1, .i32⟩ : BufTy).Contents (Elt F) → (⟨S850000x40, .f32⟩ : BufTy).Contents (Elt F)),
    unary main_v98 main_v106 (broadcastInDim S850000x1 ![0] bcast_S850000_S850000x1_0 : (⟨S850000, .f32⟩ : BufTy).Contents (Elt F) → (⟨S850000x1, .f32⟩ : BufTy).Contents (Elt F)),
    unary main_v106 main_v107 (broadcastInDim S850000x40 ![0, 1] bcast_S850000x1_S850000x40_0_1 : (⟨S850000x1, .f32⟩ : BufTy).Contents (Elt F) → (⟨S850000x40, .f32⟩ : BufTy).Contents (Elt F)),
    binary main_v105 main_v107 main_v108 (mulf : (⟨S850000x40, .f32⟩ : BufTy).Contents (Elt F) → (⟨S850000x40, .f32⟩ : BufTy).Contents (Elt F) → (⟨S850000x40, .f32⟩ : BufTy).Contents (Elt F)),
    nullary main_cst_23 (constant S_ .f32 0x00000000#32),
    unary main_cst_23 main_v109 (broadcastInDim S50000x40 ![] bcast_S_S50000x40 : (⟨S_, .f32⟩ : BufTy).Contents (Elt F) → (⟨S50000x40, .f32⟩ : BufTy).Contents (Elt F)),
    unary main_v6 main_v110 (broadcastInDim S850000x1 ![0] bcast_S850000_S850000x1_0 : (⟨S850000, .i32⟩ : BufTy).Contents (Elt F) → (⟨S850000x1, .i32⟩ : BufTy).Contents (Elt F)),
    ternary main_v109 main_v110 main_v108 main_v111 ((fun x i u => Host.scatterAdd scatter_S50000x40_S850000x1_S850000x40_1_0_0_1 x i u) : (⟨S50000x40, .f32⟩ : BufTy).Contents (Elt F) → (⟨S850000x1, .i32⟩ : BufTy).Contents (Elt F) → (⟨S850000x40, .f32⟩ : BufTy).Contents (Elt F) → (⟨S50000x40, .f32⟩ : BufTy).Contents (Elt F)),
    unary main_arg7 main_v112 (broadcastInDim S1x40 ![1] bcast_S40_S1x40_1 : (⟨S40, .f32⟩ : BufTy).Contents (Elt F) → (⟨S1x40, .f32⟩ : BufTy).Contents (Elt F)),
    unary main_v112 main_v113 (broadcastInDim S50000x40 ![0, 1] bcast_S1x40_S50000x40_0_1 : (⟨S1x40, .f32⟩ : BufTy).Contents (Elt F) → (⟨S50000x40, .f32⟩ : BufTy).Contents (Elt F)),
    binary main_v111 main_v113 main_v114 (addf : (⟨S50000x40, .f32⟩ : BufTy).Contents (Elt F) → (⟨S50000x40, .f32⟩ : BufTy).Contents (Elt F) → (⟨S50000x40, .f32⟩ : BufTy).Contents (Elt F)) ]

/-- The log-softmax (the outlined function in place), first part: every row's maximum, reduced from −∞. -/
abbrev opsE1 : List (HloOp τ sig (Elt F)) :=
  [ TRef.nullary (TRef.of (T := ⟨S_, .f32⟩) main_call3_cst) (constant S_ .f32 0xFF800000#32),
    TRef.binary (TRef.of (T := ⟨S50000x40, .f32⟩) main_v114) (TRef.of (T := ⟨S_, .f32⟩) main_call3_cst) (TRef.of (T := ⟨S50000, .f32⟩) main_call3_v0) (fun x v => Host.reduce FloatOps.maximumf x v reducesTo_S50000x40_S50000_d1 h_S_) ]

/-- Second part: the maximum taken once more with −∞, laid out as a column and along the rows, and subtracted. -/
abbrev opsE2 : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x40, .f32⟩) main_call3_v4) (broadcastInDim S50000x40 ![0, 1] bcast_S50000x1_S50000x40_0_1),
    TRef.binary (TRef.of (T := ⟨S50000x40, .f32⟩) main_v114) (TRef.of (T := ⟨S50000x40, .f32⟩) main_call3_v4) (TRef.of (T := ⟨S50000x40, .f32⟩) main_call3_v5) subf ]

/-- Third part: the exponentials and their row sums, reduced from zero. -/
abbrev opsE3 : List (HloOp τ sig (Elt F)) :=
  [ TRef.unary (TRef.of (T := ⟨S50000x40, .f32⟩) main_call3_v5) (TRef.of (T := ⟨S50000x40, .f32⟩) main_call3_v6) Host.exp,
    TRef.nullary (TRef.of (T := ⟨S_, .f32⟩) main_call3_cst_1) (constant S_ .f32 0x00000000#32),
    TRef.binary (TRef.of (T := ⟨S50000x40, .f32⟩) main_call3_v6) (TRef.of (T := ⟨S_, .f32⟩) main_call3_cst_1) (TRef.of (T := ⟨S50000, .f32⟩) main_call3_v7) (fun x v => Host.reduceAdd x v reducesTo_S50000x40_S50000_d1 h_S_) ]

/-- Last part: the sums as a column, their logarithms laid out along the rows, and subtracted. -/
abbrev opsE4 : List (HloOp τ sig (Elt F)) :=
  [ TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x40, .f32⟩) main_call3_v10) (broadcastInDim S50000x40 ![0, 1] bcast_S50000x1_S50000x40_0_1),
    TRef.binary (TRef.of (T := ⟨S50000x40, .f32⟩) main_call3_v5) (TRef.of (T := ⟨S50000x40, .f32⟩) main_call3_v10) (TRef.of (T := ⟨S50000x40, .f32⟩) main_v115) subf ]

set_option maxRecDepth 8192 in
set_option maxHeartbeats 4000000 in
/-- @main is the eight lists run one after the other. -/
theorem main_eq (c : Dev nD) : main (F := F) c = seq (opsA ++ (opsB ++ (opsC ++ (opsD ++ (opsE1 ++ (opsE2 ++ (opsE3 ++ opsE4))))))) := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., binary_bufs_sub ..⟩
set_option maxRecDepth 8192 in
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub ..⟩
set_option maxRecDepth 8192 in
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub ..⟩
set_option maxRecDepth 8192 in
theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem opsE1_sub : (opsE1 : List (HloOp τ sig (Elt F))).Forall fun op => op.bufs ⊆ tcRefs τ sig :=
  ⟨nullary_bufs_sub .., binary_bufs_sub ..⟩
theorem opsE2_sub : (opsE2 : List (HloOp τ sig (Elt F))).Forall fun op => op.bufs ⊆ tcRefs τ sig :=
  ⟨nullary_bufs_sub .., unary_bufs_sub .., binary_bufs_sub .., unary_bufs_sub .., unary_bufs_sub .., binary_bufs_sub ..⟩
theorem opsE3_sub : (opsE3 : List (HloOp τ sig (Elt F))).Forall fun op => op.bufs ⊆ tcRefs τ sig :=
  ⟨unary_bufs_sub .., nullary_bufs_sub .., binary_bufs_sub ..⟩
theorem opsE4_sub : (opsE4 : List (HloOp τ sig (Elt F))).Forall fun op => op.bufs ⊆ tcRefs τ sig :=
  ⟨unary_bufs_sub .., unary_bufs_sub .., unary_bufs_sub .., binary_bufs_sub ..⟩

theorem ops_sub : (opsA ++ (opsB ++ (opsC ++ (opsD ++ (opsE1 ++ (opsE2 ++ (opsE3 ++ opsE4)))))) : List (HloOp τ sig (Elt F))).Forall fun op => op.bufs ⊆ tcRefs τ sig :=
  List.forall_append.mpr ⟨opsA_sub, List.forall_append.mpr ⟨opsB_sub, List.forall_append.mpr ⟨opsC_sub, List.forall_append.mpr ⟨opsD_sub, List.forall_append.mpr ⟨opsE1_sub, List.forall_append.mpr ⟨opsE2_sub, List.forall_append.mpr ⟨opsE3_sub, opsE4_sub⟩⟩⟩⟩⟩⟩⟩

/-- No operation allocates a buffer. -/
theorem ops_fresh : ∀ op ∈ (opsA ++ (opsB ++ (opsC ++ (opsD ++ (opsE1 ++ (opsE2 ++ (opsE3 ++ opsE4)))))) : List (HloOp τ sig (Elt F))), op.fresh = ∅ := by
  intro op h
  simp only [List.mem_append] at h
  rcases h with h | h | h | h | h | h | h | h <;> (repeat (cases h with | head => rfl | tail _ h => ?_)) <;> exact nomatch h

/-- The eight lists as one. -/
abbrev ops : List (HloOp τ sig (Elt F)) := opsA ++ (opsB ++ (opsC ++ (opsD ++ (opsE1 ++ (opsE2 ++ (opsE3 ++ opsE4))))))

/-- The fold of the whole list is the eight lists' folds, one after the other. -/
theorem after_ops (V : Valuation τ sig (Elt F)) : after ops V = after opsE4 (after opsE3 (after opsE2 (after opsE1 (after opsD (after opsC (after opsB (after opsA V))))))) := by
  unfold ops
  rw [StableHlo.after_append, StableHlo.after_append, StableHlo.after_append, StableHlo.after_append, StableHlo.after_append, StableHlo.after_append, StableHlo.after_append]

set_option maxRecDepth 8192 in
/-- On every device, for any float values, from any memory with zero counters: every weakly fair execution of @main
    terminates with every buffer at the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Hand

end
-- ==== Proof.RefStages.lean ====
/-
  The reference's result, read off its run one list of operations at a time.  Entered at ANY contents V of the
  buffers, the first list leaves the endpoint arrays, the node weights and x · W1 as functions of V's arguments; each
  layer's list leaves the next product as one aggregation, bias-and-clamp and product of what it found in the
  endpoint, weight and previous-product buffers; the fourth list leaves the third aggregation plus its bias; and the
  four short lists of the log-softmax leave the row maxima, the shifted logits, the row sums of the exponentials and
  the result, each in the host's spelling of what it found — together, entry by entry, the log-softmax of the rows of
  the logits.  Composed over the launch contents that is the network function of the eight arguments.  No list writes
  an argument, and the layers' lists do not write the endpoint or weight buffers.
-/
import proofs.«142511_j26182120636970_1_alg».proof.Proof.Spec
import proofs.«142511_j26182120636970_1_alg».proof.Proof.SpecRead
import proofs.«142511_j26182120636970_1_alg».proof.Proof.RefRun

set_option maxRecDepth 16384

noncomputable section

open scoped BigOperators

namespace Cert.Gcn.Ref

open Cert.ReferenceIdeal Cert.ReferenceIdeal.Gen Idealize.ShloMosaic Idealize.ShloMosaic.TcCoe Idealize.SL.Sem Idealize.ShloMosaic.StableHlo
open Cert.ReferenceIdeal.Hand Cert.Gcn Idealize.ShloMosaic.ValueIdx

variable {F : FTy → Type} [FloatOps F]

/-! ## What each list leaves -/

theorem A_src (V : Valuation τ sig (Elt F)) : after opsA V (Proc.devRef .tc main_v3) = srcIdx (V (Proc.devRef .tc main_arg1)) := by
  after_results_simp <;> rfl
theorem A_dst (V : Valuation τ sig (Elt F)) : after opsA V (Proc.devRef .tc main_v6) = dstIdx (V (Proc.devRef .tc main_arg1)) := by
  after_results_simp <;> rfl
theorem A_weight (V : Valuation τ sig (Elt F)) : after opsA V (Proc.devRef .tc main_v16) = nodeWeight (dstIdx (V (Proc.devRef .tc main_arg1))) := by
  after_results_simp <;> rfl
theorem A_proj (V : Valuation τ sig (Elt F)) : after opsA V (Proc.devRef .tc main_v17) = project128 (V (Proc.devRef .tc main_arg0)) (V (Proc.devRef .tc main_arg2)) := by
  after_results_simp <;> rfl

theorem B_proj (V : Valuation τ sig (Elt F)) : after opsB V (Proc.devRef .tc main_v50)
    = project128 (biasRelu128 (aggregate128 (V (Proc.devRef .tc main_v3)) (V (Proc.devRef .tc main_v6)) (V (Proc.devRef .tc main_v16)) (V (Proc.devRef .tc main_v17))) (biasRow128 (V (Proc.devRef .tc main_arg3)))) (V (Proc.devRef .tc main_arg4)) := by
  after_results_simp <;> rfl

theorem C_proj (V : Valuation τ sig (Elt F)) : after opsC V (Proc.devRef .tc main_v83)
    = project40 (biasRelu128 (aggregate128 (V (Proc.devRef .tc main_v3)) (V (Proc.devRef .tc main_v6)) (V (Proc.devRef .tc main_v16)) (V (Proc.devRef .tc main_v50))) (biasRow128 (V (Proc.devRef .tc main_arg5)))) (V (Proc.devRef .tc main_arg6)) := by
  after_results_simp <;> rfl

theorem D_logits (V : Valuation τ sig (Elt F)) : after opsD V (Proc.devRef .tc main_v114)
    = addBias40 (aggregate40 (V (Proc.devRef .tc main_v3)) (V (Proc.devRef .tc main_v6)) (V (Proc.devRef .tc main_v16)) (V (Proc.devRef .tc main_v83))) (biasRow40 (V (Proc.devRef .tc main_arg7))) := by
  after_results_simp <;> rfl

/-! The log-softmax's four short lists, each left in the host's own spelling (the transports along the outlined
    function's buffer types dropped). -/

theorem E1_max (V : Valuation τ sig (Elt F)) : after opsE1 V (Proc.devRef .tc main_call3_v0)
    = Host.reduce FloatOps.maximumf (V (Proc.devRef .tc main_v114)) (constant S_ .f32 0xFF800000#32) Facts₀.reducesTo_S50000x40_S50000_d1 Facts₀.h_S_ := by
  after_results_simp
  simp only [TRef.toBuf, TRef.ofBuf, cast_eq]

theorem E2_shift (V : Valuation τ sig (Elt F)) : after opsE2 V (Proc.devRef .tc main_call3_v5)
    = subf (V (Proc.devRef .tc main_v114)) (broadcastInDim S50000x40 ![0, 1] Facts₀.bcast_S50000x1_S50000x40_0_1 (broadcastInDim S50000x1 ![0] Facts₀.bcast_S50000_S50000x1_0
        (maximumf (broadcastInDim S50000 ![] Facts₀.bcast_S_S50000 (constant S_ .f32 0xFF800000#32)) (V (Proc.devRef .tc main_call3_v0))))) := by
  after_results_simp
  simp only [TRef.toBuf, TRef.ofBuf, cast_eq]

theorem E3_sum (V : Valuation τ sig (Elt F)) : after opsE3 V (Proc.devRef .tc main_call3_v7)
    = Host.reduceAdd (Host.exp (V (Proc.devRef .tc main_call3_v5))) (constant S_ .f32 0x00000000#32) Facts₀.reducesTo_S50000x40_S50000_d1 Facts₀.h_S_ := by
  after_results_simp
  simp only [TRef.toBuf, TRef.ofBuf, cast_eq]

theorem E4_out (V : Valuation τ sig (Elt F)) : after opsE4 V (Proc.devRef .tc main_v115)
    = subf (V (Proc.devRef .tc main_call3_v5)) (broadcastInDim S50000x40 ![0, 1] Facts₀.bcast_S50000x1_S50000x40_0_1 (Host.log (broadcastInDim S50000x1 ![0] Facts₀.bcast_S50000_S50000x1_0 (V (Proc.devRef .tc main_call3_v7))))) := by
  after_results_simp
  simp only [TRef.toBuf, TRef.ofBuf, cast_eq]

/-! ## What each list leaves alone -/

theorem B_keep_main_v3 (V : Valuation τ sig (Elt F)) : after opsB V (Proc.devRef .tc main_v3) = V (Proc.devRef .tc main_v3) :=
  StableHlo.after_of_forall_not_mem _ _ (List.forall_iff_forall_mem.mp (by
    simp only [opsB, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem B_keep_main_v6 (V : Valuation τ sig (Elt F)) : after opsB V (Proc.devRef .tc main_v6) = V (Proc.devRef .tc main_v6) :=
  StableHlo.after_of_forall_not_mem _ _ (List.forall_iff_forall_mem.mp (by
    simp only [opsB, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem B_keep_main_v16 (V : Valuation τ sig (Elt F)) : after opsB V (Proc.devRef .tc main_v16) = V (Proc.devRef .tc main_v16) :=
  StableHlo.after_of_forall_not_mem _ _ (List.forall_iff_forall_mem.mp (by
    simp only [opsB, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem B_keep_main_arg5 (V : Valuation τ sig (Elt F)) : after opsB V (Proc.devRef .tc main_arg5) = V (Proc.devRef .tc main_arg5) :=
  StableHlo.after_of_forall_not_mem _ _ (List.forall_iff_forall_mem.mp (by
    simp only [opsB, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem B_keep_main_arg6 (V : Valuation τ sig (Elt F)) : after opsB V (Proc.devRef .tc main_arg6) = V (Proc.devRef .tc main_arg6) :=
  StableHlo.after_of_forall_not_mem _ _ (List.forall_iff_forall_mem.mp (by
    simp only [opsB, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem B_keep_main_arg7 (V : Valuation τ sig (Elt F)) : after opsB V (Proc.devRef .tc main_arg7) = V (Proc.devRef .tc main_arg7) :=
  StableHlo.after_of_forall_not_mem _ _ (List.forall_iff_forall_mem.mp (by
    simp only [opsB, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem C_keep_main_v3 (V : Valuation τ sig (Elt F)) : after opsC V (Proc.devRef .tc main_v3) = V (Proc.devRef .tc main_v3) :=
  StableHlo.after_of_forall_not_mem _ _ (List.forall_iff_forall_mem.mp (by
    simp only [opsC, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem C_keep_main_v6 (V : Valuation τ sig (Elt F)) : after opsC V (Proc.devRef .tc main_v6) = V (Proc.devRef .tc main_v6) :=
  StableHlo.after_of_forall_not_mem _ _ (List.forall_iff_forall_mem.mp (by
    simp only [opsC, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem C_keep_main_v16 (V : Valuation τ sig (Elt F)) : after opsC V (Proc.devRef .tc main_v16) = V (Proc.devRef .tc main_v16) :=
  StableHlo.after_of_forall_not_mem _ _ (List.forall_iff_forall_mem.mp (by
    simp only [opsC, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem C_keep_main_arg7 (V : Valuation τ sig (Elt F)) : after opsC V (Proc.devRef .tc main_arg7) = V (Proc.devRef .tc main_arg7) :=
  StableHlo.after_of_forall_not_mem _ _ (List.forall_iff_forall_mem.mp (by
    simp only [opsC, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem A_keep_main_arg3 (V : Valuation τ sig (Elt F)) : after opsA V (Proc.devRef .tc main_arg3) = V (Proc.devRef .tc main_arg3) :=
  StableHlo.after_of_forall_not_mem _ _ (List.forall_iff_forall_mem.mp (by
    simp only [opsA, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem A_keep_main_arg4 (V : Valuation τ sig (Elt F)) : after opsA V (Proc.devRef .tc main_arg4) = V (Proc.devRef .tc main_arg4) :=
  StableHlo.after_of_forall_not_mem _ _ (List.forall_iff_forall_mem.mp (by
    simp only [opsA, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem A_keep_main_arg5 (V : Valuation τ sig (Elt F)) : after opsA V (Proc.devRef .tc main_arg5) = V (Proc.devRef .tc main_arg5) :=
  StableHlo.after_of_forall_not_mem _ _ (List.forall_iff_forall_mem.mp (by
    simp only [opsA, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem A_keep_main_arg6 (V : Valuation τ sig (Elt F)) : after opsA V (Proc.devRef .tc main_arg6) = V (Proc.devRef .tc main_arg6) :=
  StableHlo.after_of_forall_not_mem _ _ (List.forall_iff_forall_mem.mp (by
    simp only [opsA, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem A_keep_main_arg7 (V : Valuation τ sig (Elt F)) : after opsA V (Proc.devRef .tc main_arg7) = V (Proc.devRef .tc main_arg7) :=
  StableHlo.after_of_forall_not_mem _ _ (List.forall_iff_forall_mem.mp (by
    simp only [opsA, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem E1_keep_main_v114 (V : Valuation τ sig (Elt F)) : after opsE1 V (Proc.devRef .tc main_v114) = V (Proc.devRef .tc main_v114) :=
  StableHlo.after_of_forall_not_mem _ _ (List.forall_iff_forall_mem.mp (by
    simp only [opsE1, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem E3_keep_main_call3_v5 (V : Valuation τ sig (Elt F)) : after opsE3 V (Proc.devRef .tc main_call3_v5) = V (Proc.devRef .tc main_call3_v5) :=
  StableHlo.after_of_forall_not_mem _ _ (List.forall_iff_forall_mem.mp (by
    simp only [opsE3, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem keep_main_arg0 (V : Valuation τ sig (Elt F)) : after ops V (Proc.devRef .tc main_arg0) = V (Proc.devRef .tc main_arg0) :=
  StableHlo.after_of_forall_not_mem _ _ (List.forall_iff_forall_mem.mp (by
    simp only [ops, opsA, opsB, opsC, opsD, opsE1, opsE2, opsE3, opsE4, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_main_arg1 (V : Valuation τ sig (Elt F)) : after ops V (Proc.devRef .tc main_arg1) = V (Proc.devRef .tc main_arg1) :=
  StableHlo.after_of_forall_not_mem _ _ (List.forall_iff_forall_mem.mp (by
    simp only [ops, opsA, opsB, opsC, opsD, opsE1, opsE2, opsE3, opsE4, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_main_arg2 (V : Valuation τ sig (Elt F)) : after ops V (Proc.devRef .tc main_arg2) = V (Proc.devRef .tc main_arg2) :=
  StableHlo.after_of_forall_not_mem _ _ (List.forall_iff_forall_mem.mp (by
    simp only [ops, opsA, opsB, opsC, opsD, opsE1, opsE2, opsE3, opsE4, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_main_arg3 (V : Valuation τ sig (Elt F)) : after ops V (Proc.devRef .tc main_arg3) = V (Proc.devRef .tc main_arg3) :=
  StableHlo.after_of_forall_not_mem _ _ (List.forall_iff_forall_mem.mp (by
    simp only [ops, opsA, opsB, opsC, opsD, opsE1, opsE2, opsE3, opsE4, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_main_arg4 (V : Valuation τ sig (Elt F)) : after ops V (Proc.devRef .tc main_arg4) = V (Proc.devRef .tc main_arg4) :=
  StableHlo.after_of_forall_not_mem _ _ (List.forall_iff_forall_mem.mp (by
    simp only [ops, opsA, opsB, opsC, opsD, opsE1, opsE2, opsE3, opsE4, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_main_arg5 (V : Valuation τ sig (Elt F)) : after ops V (Proc.devRef .tc main_arg5) = V (Proc.devRef .tc main_arg5) :=
  StableHlo.after_of_forall_not_mem _ _ (List.forall_iff_forall_mem.mp (by
    simp only [ops, opsA, opsB, opsC, opsD, opsE1, opsE2, opsE3, opsE4, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_main_arg6 (V : Valuation τ sig (Elt F)) : after ops V (Proc.devRef .tc main_arg6) = V (Proc.devRef .tc main_arg6) :=
  StableHlo.after_of_forall_not_mem _ _ (List.forall_iff_forall_mem.mp (by
    simp only [ops, opsA, opsB, opsC, opsD, opsE1, opsE2, opsE3, opsE4, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem keep_main_arg7 (V : Valuation τ sig (Elt F)) : after ops V (Proc.devRef .tc main_arg7) = V (Proc.devRef .tc main_arg7) :=
  StableHlo.after_of_forall_not_mem _ _ (List.forall_iff_forall_mem.mp (by
    simp only [ops, opsA, opsB, opsC, opsD, opsE1, opsE2, opsE3, opsE4, List.cons_append, List.nil_append, List.append_nil, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-! ## The result -/

/-- The log-softmax's four lists leave the row-wise log-softmax of the logits they find: read entry by entry, the
    host's row maximum, shift, exponentials, row sum and logarithm are the row's log-softmax. -/
theorem E_out (V : Valuation τ sig (Elt Ideal)) :
    after opsE4 (after opsE3 (after opsE2 (after opsE1 V))) (Proc.devRef .tc main_v115) = logSoftmaxRows (V (Proc.devRef .tc main_v114)) := by
  funext i
  obtain ⟨r, q, rfl⟩ : ∃ (r : Fin 50000) (q : Fin 40), i = ix2 r q := ⟨i 0, i 1, eq_ix2 i⟩
  rewrite [E4_out, E3_sum, E3_keep_main_call3_v5, E2_shift, E1_max, E1_keep_main_v114]
  rewrite [hostLogSum_apply, hostShifted_apply, logSoftmaxRows_apply]
  delta rowLogSoftmax
  refine congrArg (fun s => _ - Ideal.log s) (Finset.sum_congr rfl fun k _ => ?_)
  rewrite [hostShifted_apply]
  exact rfl

/-- The result buffer after the whole run, from any contents: the network of the argument buffers. -/
theorem result_eq (V : Valuation τ sig (Elt Ideal)) : after ops V (Proc.devRef .tc main_v115)
    = network (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7)) := by
  rewrite [after_ops, E_out, D_logits, C_proj, C_keep_main_v3, C_keep_main_v6, C_keep_main_v16, C_keep_main_arg7, B_proj, B_keep_main_v3, B_keep_main_v6, B_keep_main_v16,
    B_keep_main_arg5, B_keep_main_arg6, B_keep_main_arg7, A_src, A_dst, A_weight, A_proj, A_keep_main_arg3, A_keep_main_arg4, A_keep_main_arg5, A_keep_main_arg6, A_keep_main_arg7]
  delta network layers
  exact rfl

/-- The reference's run, read: every weakly fair execution terminates with the result at the network of the launched
    arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v115) = network (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v115).trans (result_eq _),
      (h c main_arg0).trans (keep_main_arg0 _),
      (h c main_arg1).trans (keep_main_arg1 _),
      (h c main_arg2).trans (keep_main_arg2 _),
      (h c main_arg3).trans (keep_main_arg3 _),
      (h c main_arg4).trans (keep_main_arg4 _),
      (h c main_arg5).trans (keep_main_arg5 _),
      (h c main_arg6).trans (keep_main_arg6 _),
      (h c main_arg7).trans (keep_main_arg7 _)⟩)
    (run_fold m ρ)

end Cert.Gcn.Ref

end
-- ==== Proof.lean ====
/-
  The certificate of a three-layer graph convolution with a log-softmax head — 50000 nodes, 800000 edges and a
  self-loop per node — whose dense steps run in four pallas_calls against a plain jnp reference.

  Both programs prepare the edges on the host in the same way (endpoints with the self-loops appended, degrees by a
  scatter-add of ones, node weights deg^(-1/2), one coefficient per edge) and aggregate a feature array in the same way
  (gather at the sources, scale, scatter-add at the destinations); they differ in where the dense steps run.  The
  kernel computes  x · W1 ,  relu (agg + b1) · W2 ,  relu (agg + b2) · W3  and  log_softmax (agg + b3)  block by block,
  5000 nodes at a time, the products on the matrix unit from operands rounded to bf16 — the identity on the extended
  reals — into a zero accumulator; the reference computes them with one `dot_general`, `maximum` and
  `log_softmax` each over the whole arrays.  On the extended reals a matrix product is the same sum over k however
  it is blocked, the row maximum is the same fold of max from −∞ (the reference takes the maximum with −∞ once more,
  which changes nothing), and the row sum of the exponentials is the same sum (the reference's starts from a zero);
  so every dense step of the kernel is, entry by entry, the reference's step of the same operand arrays
  (Proof/Region0 … Region3, against Proof/SpecRead), and since the host operations between the steps are the same in
  both programs, both results are ONE function of the eight arguments, `Cert.Gcn.network` (Proof/Spec): the
  reference's by reading its run list by list (Proof/RefRun, Proof/RefStages), the kernel's by walking the contents of
  its buffers back through its four regions and five stretches of host operations (Proof/KernelRun,
  Proof/KernelStages).  No step moves a factor across a sum or cancels anything, so the finiteness of the inputs
  is never used.

  The three frames: the two kernel programs' are the generated frame theorems; the reference's is its run with the
  result dropped.  The idealization rewrote no operation, so `preserves` asks nothing.
-/
import proofs.«142511_j26182120636970_1_alg».proof.Defs
import proofs.«142511_j26182120636970_1_alg».proof.Proof.Gen.Kernel
import proofs.«142511_j26182120636970_1_alg».proof.Proof.Gen.Kernel.Frame
import proofs.«142511_j26182120636970_1_alg».proof.Proof.Gen.KernelIdeal
import proofs.«142511_j26182120636970_1_alg».proof.Proof.Gen.KernelIdeal.Frame
import proofs.«142511_j26182120636970_1_alg».proof.Proof.Gen.ReferenceIdeal
import proofs.«142511_j26182120636970_1_alg».proof.Proof.Gen.Pre_finite_inputs
import proofs.«142511_j26182120636970_1_alg».proof.Proof.KernelRun
import proofs.«142511_j26182120636970_1_alg».proof.Proof.KernelStages
import proofs.«142511_j26182120636970_1_alg».proof.Proof.RefStages
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.Gcn.Ref.run m ρ)

/-- Both idealized programs end with the network of the arguments in their result buffers: the kernel's run ends with
    its result buffer at the last boundary's contents, which is the network of its launched arguments; the reference's
    run ends at the network of ITS launched arguments, which agree with the kernel's. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (Cert.Gcn.Ker.result_eq m ρ c), (h c).2⟩)
      (Cert.KernelIdeal.Run.run_result m ρ)
  · refine (θ_run Cert.ReferenceIdeal.defs _ _).mono (fun _ h c => ⟨(h c).1.trans ?_, (h c).2⟩) (Cert.Gcn.Ref.run m' ρ')
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
